-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S256x512 : Shape := ⟨2, ![256, 512]⟩
abbrev S256 : Shape := ⟨1, ![256]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S262144x512 .f32) (main_arg1 : FVec F S256x512 .f32) (main_arg2 : FVec F S256 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x512 : Shape := ⟨2, ![262144, 512]⟩
abbrev S256x512 : Shape := ⟨2, ![256, 512]⟩
abbrev S256 : Shape := ⟨1, ![256]⟩
abbrev S_ : Shape := ⟨0, ![]⟩
abbrev S256x1 : Shape := ⟨2, ![256, 1]⟩
abbrev S262144x256 : Shape := ⟨2, ![262144, 256]⟩
abbrev S2x1x256 : Shape := ⟨3, ![2, 1, 256]⟩
abbrev S2x256x512 : Shape := ⟨3, ![2, 256, 512]⟩
abbrev S2048x512 : Shape := ⟨2, ![2048, 512]⟩
abbrev S2048x256 : Shape := ⟨2, ![2048, 256]⟩
abbrev S1x1x256 : Shape := ⟨3, ![1, 1, 256]⟩
abbrev S1x256x512 : Shape := ⟨3, ![1, 256, 512]⟩
abbrev S2048 : Shape := ⟨1, ![2048]⟩
abbrev S2048x1 : Shape := ⟨2, ![2048, 1]⟩
abbrev S2x256 : Shape := ⟨2, ![2, 256]⟩

abbrev nBuf : Space → Nat
  | .hbm => 35
  | .vmem => 11
  | .smem => 0
  | _ => 0

abbrev bufTy : (tb : Table) → Fin (tcTables nBuf tb) → BufTy
  | .hbm, ⟨0, _⟩ => ⟨S262144x512, .f32⟩
  | .hbm, ⟨1, _⟩ => ⟨S256x512, .f32⟩
  | .hbm, ⟨2, _⟩ => ⟨S256, .f32⟩
  | .hbm, ⟨3, _⟩ => ⟨S256x512, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x512, .f32⟩
  | .hbm, ⟨12, _⟩ => ⟨S256x512, .f32⟩
  | .hbm, ⟨13, _⟩ => ⟨S262144x256, .f32⟩
  | .hbm, ⟨14, _⟩ => ⟨S2x1x256, .f32⟩
  | .hbm, ⟨15, _⟩ => ⟨S2x256x512, .f32⟩
  | .hbm, ⟨16, _⟩ => ⟨S2x256, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256x512, .f32⟩
  | .hbm, ⟨21, _⟩ => ⟨S256x1, .f32⟩
  | .hbm, ⟨22, _⟩ => ⟨S256x512, .f32⟩
  | .hbm, ⟨23, _⟩ => ⟨S256x512, .f32⟩
  | .hbm, ⟨24, _⟩ => ⟨S256, .f32⟩
  | .hbm, ⟨25, _⟩ => ⟨S256, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S256x512, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S2048x256, .f32⟩
  | .local _ .vmem, ⟨4, _⟩ => ⟨S2048x256, .f32⟩
  | .local _ .vmem, ⟨5, _⟩ => ⟨S1x1x256, .f32⟩
  | .local _ .vmem, ⟨6, _⟩ => ⟨S1x1x256, .f32⟩
  | .local _ .vmem, ⟨7, _⟩ => ⟨S1x256x512, .f32⟩
  | .local _ .vmem, ⟨8, _⟩ => ⟨S1x256x512, .f32⟩
  | .local _ .vmem, ⟨9, _⟩ => ⟨S1x1x256, .f32⟩
  | .local _ .vmem, ⟨10, _⟩ => ⟨S1x256x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v42 : BitVec 1 := Scalar.cmpi .eq arg1 c63_i32
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S1x256x512_S1x256x512_0_0_0 : ∀ a, (![0, 0, 0] : Fin 3 → Nat) a + S1x256x512.size a ≤ S1x256x512.size a
  h_S1x256x512 : 0 < S1x256x512.numel
  shapeCasts_S1x256x512_S1x256x512 : S1x256x512.ShapeCasts S1x256x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  broadcasts_S2048x1_S2048x256 : S2048x1.Broadcasts S2048x256
  reduces_S2048x256_S256 : S2048x256.Reduces [0] S256
  shapeCasts_S256_S1x1x256 : S256.ShapeCasts S1x1x256
  shapeCasts_S256x512_S1x256x512 : S256x512.ShapeCasts S1x256x512
  shapeCasts_S2x1x256_S2x256 : S2x1x256.ShapeCasts S2x256
  reducesTo_S2x256_S256_d0 : S2x256.ReducesTo [0] S256
  reducesTo_S2x256x512_S256x512_d0 : S2x256x512.ReducesTo [0] S256x512
  dot_S2048x512_S256x512_S2048x256_1_1_0_0_n_n_wf : DotDims.WF S2048x512 S256x512 S2048x256 [1] [1] [0] [0] [] []
  dot_S2048x256_S2048x512_S256x512_0_0_1_1_n_n_wf : DotDims.WF S2048x256 S2048x512 S256x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S262144x256.size a
  hwx0_2 : ∀ i : grid0.Coords, EltTy.bits .f32 = 32 ∨ (Rect.block (s := S262144x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S2x256x512.size a
  hwx0_4 : ∀ i : grid0.Coords, EltTy.bits .f32 = 32 ∨ (Rect.block (s := S2x256x512) S1x256x512.size (cc0_transform_4 i) (hinb0_4 i)).WholeWords (EltTy.packing .f32)

variable [Facts₀]

def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S2048x512_S256x512_0_0_1_1_n_n : DotDims S2048x256 S2048x512 S256x512 where
  lhsContracting := [0]
  rhsContracting := [0]
  lhsNonContracting := [1]
  rhsNonContracting := [1]
  lhsBatch := []
  rhsBatch := []
  wf := dot_S2048x256_S2048x512_S256x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x512 : Shape := ⟨2, ![262144, 512]⟩
abbrev S256x512 : Shape := ⟨2, ![256, 512]⟩
abbrev S256 : Shape := ⟨1, ![256]⟩
abbrev S_ : Shape := ⟨0, ![]⟩
abbrev S262144 : Shape := ⟨1, ![262144]⟩
abbrev S262144x1 : Shape := ⟨2, ![262144, 1]⟩
abbrev S256x1 : Shape := ⟨2, ![256, 1]⟩
abbrev S512x256 : Shape := ⟨2, ![512, 256]⟩
abbrev S262144x256 : Shape := ⟨2, ![262144, 256]⟩
abbrev S256x262144 : Shape := ⟨2, ![256, 262144]⟩

abbrev nBuf : Space → Nat
  | .hbm => 60
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S256x512, .f32⟩
  | .hbm, ⟨2, _⟩ => ⟨S256, .f32⟩
  | .hbm, ⟨3, _⟩ => ⟨S262144x512, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x512, .f32⟩
  | .hbm, ⟨12, _⟩ => ⟨S262144x512, .f32⟩
  | .hbm, ⟨13, _⟩ => ⟨S256x512, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x512, .f32⟩
  | .hbm, ⟨22, _⟩ => ⟨S256x512, .f32⟩
  | .hbm, ⟨23, _⟩ => ⟨S512x256, .f32⟩
  | .hbm, ⟨24, _⟩ => ⟨S262144x256, .f32⟩
  | .hbm, ⟨25, _⟩ => ⟨S_, .f32⟩
  | .hbm, ⟨26, _⟩ => ⟨S262144x256, .f32⟩
  | .hbm, ⟨27, _⟩ => ⟨S262144x256, .f32⟩
  | .hbm, ⟨28, _⟩ => ⟨S_, .f32⟩
  | .hbm, ⟨29, _⟩ => ⟨S262144, .f32⟩
  | .hbm, ⟨30, _⟩ => ⟨S_, .f32⟩
  | .hbm, ⟨31, _⟩ => ⟨S262144, .f32⟩
  | .hbm, ⟨32, _⟩ => ⟨S262144, .f32⟩
  | .hbm, ⟨33, _⟩ => ⟨S262144x1, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S_, .f32⟩
  | .hbm, ⟨38, _⟩ => ⟨S262144, .f32⟩
  | .hbm, ⟨39, _⟩ => ⟨S262144x1, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S256, .f32⟩
  | .hbm, ⟨44, _⟩ => ⟨S256x262144, .f32⟩
  | .hbm, ⟨45, _⟩ => ⟨S256x512, .f32⟩
  | .hbm, ⟨46, _⟩ => ⟨S256x1, .f32⟩
  | .hbm, ⟨47, _⟩ => ⟨S256x512, .f32⟩
  | .hbm, ⟨48, _⟩ => ⟨S256x512, .f32⟩
  | .hbm, ⟨49, _⟩ => ⟨S256, .f32⟩
  | .hbm, ⟨50, _⟩ => ⟨S256, .f32⟩
  | .hbm, ⟨51, _⟩ => ⟨S256x1, .f32⟩
  | .hbm, ⟨52, _⟩ => ⟨S_, .f32⟩
  | .hbm, ⟨53, _⟩ => ⟨S256x1, .f32⟩
  | .hbm, ⟨54, _⟩ => ⟨S256x1, .f32⟩
  | .hbm, ⟨55, _⟩ => ⟨S256x512, .f32⟩
  | .hbm, ⟨56, _⟩ => ⟨S256x512, .f32⟩
  | .hbm, ⟨57, _⟩ => ⟨S256x512, .f32⟩
  | .hbm, ⟨58, _⟩ => ⟨S256x512, .f32⟩
  | .hbm, ⟨59, _⟩ => ⟨S256x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  reducesTo_S262144x512_S262144_d1 : S262144x512.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x512_0_1 : S262144x1.BroadcastsInDim S262144x512 (![0, 1] : Fin 2 → Fin S262144x512.rank)
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S_S262144x256 : S_.BroadcastsInDim S262144x256 (![] : Fin 0 → Fin S262144x256.rank)
  reducesTo_S262144x256_S262144_d1 : S262144x256.ReducesTo [1] S262144
  bcast_S_S262144 : S_.BroadcastsInDim S262144 (![] : Fin 0 → Fin S262144.rank)
  bcast_S262144x1_S262144x256_0_1 : S262144x1.BroadcastsInDim S262144x256 (![0, 1] : Fin 2 → Fin S262144x256.rank)
  reducesTo_S262144x256_S256_d0 : S262144x256.ReducesTo [0] S256
  transposes_S262144x256_S256x262144_1_0 : S262144x256.Transposes [1, 0] S256x262144
  dot_S262144x512_S512x256_S262144x256_1_0_0_1_n_n_wf : DotDims.WF S262144x512 S512x256 S262144x256 [1] [0] [0] [1] [] []
  dot_S256x262144_S262144x512_S256x512_1_0_0_1_n_n_wf : DotDims.WF S256x262144 S262144x512 S256x512 [1] [0] [0] [1] [] []

variable [Facts₀]

def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S256x262144_S262144x512_S256x512_1_0_0_1_n_n : DotDims S256x262144 S262144x512 S256x512 where
  lhsContracting := [1]
  rhsContracting := [0]
  lhsNonContracting := [0]
  rhsNonContracting := [1]
  lhsBatch := []
  rhsBatch := []
  wf := dot_S256x262144_S262144x512_S256x512_1_0_0_1_n_n_wf

class Facts : Prop extends Facts₀ where

variable [Facts]
-- ==== Proof.Pieces.lean ====
/-
  What one grid point leaves behind, as the body's arithmetic of what it loaded.

  The body of the kernel, at every point, stores the block of similarities, adds the block's column sums of the soft
  assignment into a running mass and the block's weighted unit rows into a running moment; a first point of a core
  starts both from zero, a last point also writes both out. The frame run records each buffer's final contents as
  the stores it found; here each is read back as one term over the loaded blocks: the payloads `k0_pay5` (the
  similarities), `k0_pay7` (mass so far plus column sums) and `k0_pay1` (moment so far plus weighted rows), at any
  float instance.
-/
import proofs.«181471_j45372034515504_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.Vq.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first point of a core the similarities' block is the product of the unit rows with the codebook. -/
theorem out_A_2 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : cond0_0 i) (hc1 : ¬cond0_1 i)
    (x0 : Vec F S2048x512 .f32) (x1 : Vec F S256x512 .f32) :
    out0_A_2 c i arg2 harg2 arg3 harg3 arg4 harg4 arg5 harg5 arg6 harg6 arg7 harg7 arg8 harg8 hc0 hc1 x0 x1 = k0_pay5 x0 x1 := by
  unfold out0_A_2
  rw [View.read_writes_eq_canon _ _ _ (cover0_A_2 c i arg2 harg2 arg3 harg3 arg4 harg4 arg5 harg5 arg6 harg6 arg7 harg7 arg8 harg8 hc0 hc1 x0 x1)]
  unfold kernelRun0_A
  dsimp only
  sl_unfold_words
  rw [View.canon_unit_zero hz2]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a first point the running mass restarts: the zero block plus this block's column sums. -/
theorem sout_A_0 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : cond0_0 i) (hc1 : ¬cond0_1 i)
    (x0 : Vec F S2048x512 .f32) (x1 : Vec F S256x512 .f32) :
    sout0_A_0 c i arg2 harg2 arg3 harg3 arg4 harg4 arg5 harg5 arg6 harg6 arg7 harg7 arg8 harg8 hc0 hc1 x0 x1 = k0_pay7 x0 x1 k0_pay2 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a first point the running moment restarts: the zero block plus this block's weighted rows. -/
theorem sout_A_1 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : cond0_0 i) (hc1 : ¬cond0_1 i)
    (x0 : Vec F S2048x512 .f32) (x1 : Vec F S256x512 .f32) :
    sout0_A_1 c i arg2 harg2 arg3 harg3 arg4 harg4 arg5 harg5 arg6 harg6 arg7 harg7 arg8 harg8 hc0 hc1 x0 x1 = k0_pay1 (k0_pay4 x0) (k0_pay8 x0 x1) k0_pay3 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x256x512) hz3, View.readCov_unit_zero (S := S1x256x512) _ hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a middle point the similarities' block is the same function of the blocks. -/
theorem out_B_2 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : ¬cond0_1 i)
    (x0 : Vec F S2048x512 .f32) (x1 : Vec F S256x512 .f32) (xs0 : Vec F S1x1x256 .f32) (xs1 : Vec F S1x256x512 .f32) :
    out0_B_2 c i arg2 harg2 arg3 harg3 arg4 harg4 arg5 harg5 arg6 harg6 arg7 harg7 arg8 harg8 hc0 hc1 x0 x1 xs0 xs1 = k0_pay5 x0 x1 := by
  unfold out0_B_2
  rw [View.read_writes_eq_canon _ _ _ (cover0_B_2 c i arg2 harg2 arg3 harg3 arg4 harg4 arg5 harg5 arg6 harg6 arg7 harg7 arg8 harg8 hc0 hc1 x0 x1 xs0 xs1)]
  unfold kernelRun0_B
  dsimp only
  sl_unfold_words
  rw [View.canon_unit_zero hz2]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a middle point the running mass gains this block's column sums. -/
theorem sout_B_0 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : ¬cond0_1 i)
    (x0 : Vec F S2048x512 .f32) (x1 : Vec F S256x512 .f32) (xs0 : Vec F S1x1x256 .f32) (xs1 : Vec F S1x256x512 .f32) :
    sout0_B_0 c i arg2 harg2 arg3 harg3 arg4 harg4 arg5 harg5 arg6 harg6 arg7 harg7 arg8 harg8 hc0 hc1 x0 x1 xs0 xs1 = k0_pay7 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1)]
  unfold kernelRun0_B
  dsimp only
  sl_unfold_words
  rw [View.canon_unit_zero hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a middle point the running moment gains this block's weighted rows. -/
theorem sout_B_1 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : ¬cond0_1 i)
    (x0 : Vec F S2048x512 .f32) (x1 : Vec F S256x512 .f32) (xs0 : Vec F S1x1x256 .f32) (xs1 : Vec F S1x256x512 .f32) :
    sout0_B_1 c i arg2 harg2 arg3 harg3 arg4 harg4 arg5 harg5 arg6 harg6 arg7 harg7 arg8 harg8 hc0 hc1 x0 x1 xs0 xs1 = k0_pay1 (k0_pay4 x0) (k0_pay8 x0 x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1)]
  unfold kernelRun0_B
  dsimp only
  sl_unfold_words
  rw [View.canon_unit_zero hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a last point of a core the similarities' block is the same function of the blocks. -/
theorem out_C_2 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : cond0_1 i)
    (x0 : Vec F S2048x512 .f32) (x1 : Vec F S256x512 .f32) (xs0 : Vec F S1x1x256 .f32) (xs1 : Vec F S1x256x512 .f32) :
    out0_C_2 c i arg2 harg2 arg3 harg3 arg4 harg4 arg5 harg5 arg6 harg6 arg7 harg7 arg8 harg8 hc0 hc1 x0 x1 xs0 xs1 = k0_pay5 x0 x1 := by
  unfold out0_C_2
  rw [View.read_writes_eq_canon _ _ _ (cover0_C_2 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz2]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a last point the mass written out is the running mass with this block's column sums added. -/
theorem out_C_3 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : cond0_1 i)
    (x0 : Vec F S2048x512 .f32) (x1 : Vec F S256x512 .f32) (xs0 : Vec F S1x1x256 .f32) (xs1 : Vec F S1x256x512 .f32) :
    out0_C_3 c i arg2 harg2 arg3 harg3 arg4 harg4 arg5 harg5 arg6 harg6 arg7 harg7 arg8 harg8 hc0 hc1 x0 x1 xs0 xs1 = k0_pay7 x0 x1 xs0 := by
  unfold out0_C_3
  rw [View.read_writes_eq_canon _ _ _ (cover0_C_3 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz3, View.readCov_unit_zero (S := S1x1x256) _ hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a last point the moment written out is the running moment with this block's weighted rows added. -/
theorem out_C_4 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : cond0_1 i)
    (x0 : Vec F S2048x512 .f32) (x1 : Vec F S256x512 .f32) (xs0 : Vec F S1x1x256 .f32) (xs1 : Vec F S1x256x512 .f32) :
    out0_C_4 c i arg2 harg2 arg3 harg3 arg4 harg4 arg5 harg5 arg6 harg6 arg7 harg7 arg8 harg8 hc0 hc1 x0 x1 xs0 xs1 = k0_pay1 (k0_pay4 x0) (k0_pay8 x0 x1) xs1 := by
  unfold out0_C_4
  rw [View.read_writes_eq_canon _ _ _ (cover0_C_4 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz3, View.readCov_unit_zero (S := S1x256x512) _ hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a last point the running mass gains this block's column sums. -/
theorem sout_C_0 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : cond0_1 i)
    (x0 : Vec F S2048x512 .f32) (x1 : Vec F S256x512 .f32) (xs0 : Vec F S1x1x256 .f32) (xs1 : Vec F S1x256x512 .f32) :
    sout0_C_0 c i arg2 harg2 arg3 harg3 arg4 harg4 arg5 harg5 arg6 harg6 arg7 harg7 arg8 harg8 hc0 hc1 x0 x1 xs0 xs1 = k0_pay7 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

/-- At a last point the running moment gains this block's weighted rows. -/
theorem sout_C_1 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (hc0 : ¬cond0_0 i) (hc1 : cond0_1 i)
    (x0 : Vec F S2048x512 .f32) (x1 : Vec F S256x512 .f32) (xs0 : Vec F S1x1x256 .f32) (xs1 : Vec F S1x256x512 .f32) :
    sout0_C_1 c i arg2 harg2 arg3 harg3 arg4 harg4 arg5 harg5 arg6 harg6 arg7 harg7 arg8 harg8 hc0 hc1 x0 x1 xs0 xs1 = k0_pay1 (k0_pay4 x0) (k0_pay8 x0 x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz3]
  simp only [View.readAt_eq_ld, harg2.read_unread, harg3.read_unread, harg7.read_unread, harg8.read_unread,
    View.ld_unit_zero (S := S2048x512) hz2, View.ld_unit_zero (S := S256x512) hz2, View.ld_unit_zero (S := S1x1x256) hz3,
    View.ld_unit_zero (S := S1x256x512) hz3]

end Cert.Vq.Pieces

end
-- ==== Proof.Steps.lean ====
/-
  The grid, point by point, at any float instance.

  Points are numbered core by core, 64 to a core. Whatever the point, the block of similarities it leaves is the body's
  product of its two loaded blocks. The running mass and the running moment restart at a core's first point (from the
  zero block) and at every other point take the point before's value and add this point's contribution; at a core's last
  point the two outputs written out are the running values there. These are the recurrences; the sums they unfold to
  are taken at the ideal values elsewhere.
-/
import proofs.«181471_j45372034515504_1_alg».proof.Proof.Pieces

set_option maxRecDepth 16384

noncomputable section

open Idealize.ShloMosaic Idealize.ShloMosaic.TcCoe Idealize.ShloMosaic.Tactic Idealize.SL.Sem

namespace Cert.Vq.Steps

open Cert.KernelIdeal Cert.KernelIdeal.Gen

variable {F : FTy → Type} [FloatOps F]
variable (m : (ℓ : Loc nD τ sig) → Buf (Elt F) ℓ)

/-- The similarities' block after point `n`: the product of the point's row block with the codebook. -/
theorem sims_eq (c : Dev nD) (n : ℕ) (h : n < cfg0.N) :
    (outsAt0 m c n h).1 = k0_pay5 (iblk m c 0 (⟨n, h⟩ : Fin cfg0.N)) (iblk m c 1 (⟨n, h⟩ : Fin cfg0.N)) := by
  have hN : n < 128 := lt_of_lt_of_eq h (show cfg0.N = 128 from N_0)
  by_cases h0 : n % 64 = 0
  · have h1 : ¬n % 64 = 63 := by omega
    rw [outsAt0_A m c (⟨n, h⟩ : Fin cfg0.N) h0 h1]
    dsimp only
    exact Pieces.out_A_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N))
  · by_cases h1 : n % 64 = 63
    · rw [outsAt0_C m c (⟨n, h⟩ : Fin cfg0.N) h0 h1]
      dsimp only
      exact Pieces.out_C_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N)) _ _
    · rw [outsAt0_B m c (⟨n, h⟩ : Fin cfg0.N) h0 h1]
      dsimp only
      exact Pieces.out_B_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N)) _ _

/-- The running mass restarts at a core's first point. -/
theorem mass_first (c : Dev nD) (n : ℕ) (h : n < cfg0.N) (h0 : n % 64 = 0) :
    (outsAt0 m c n h).2.2.2.1 = k0_pay7 (iblk m c 0 (⟨n, h⟩ : Fin cfg0.N)) (iblk m c 1 (⟨n, h⟩ : Fin cfg0.N)) k0_pay2 := by
  have h1 : ¬n % 64 = 63 := by omega
  rw [outsAt0_A m c (⟨n, h⟩ : Fin cfg0.N) h0 h1]
  dsimp only
  exact Pieces.sout_A_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N))

/-- The running moment restarts at a core's first point. -/
theorem moment_first (c : Dev nD) (n : ℕ) (h : n < cfg0.N) (h0 : n % 64 = 0) :
    (outsAt0 m c n h).2.2.2.2 = k0_pay1 (k0_pay4 (iblk m c 0 (⟨n, h⟩ : Fin cfg0.N))) (k0_pay8 (iblk m c 0 (⟨n, h⟩ : Fin cfg0.N)) (iblk m c 1 (⟨n, h⟩ : Fin cfg0.N))) k0_pay3 := by
  have h1 : ¬n % 64 = 63 := by omega
  rw [outsAt0_A m c (⟨n, h⟩ : Fin cfg0.N) h0 h1]
  dsimp only
  exact Pieces.sout_A_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N))

/-- At every other point the running mass is the point before's with this point's column sums added. -/
theorem mass_next (c : Dev nD) (n : ℕ) (h : n + 1 < cfg0.N) (h0 : ¬(n + 1) % 64 = 0) :
    (outsAt0 m c (n + 1) h).2.2.2.1 = k0_pay7 (iblk m c 0 (⟨n + 1, h⟩ : Fin cfg0.N)) (iblk m c 1 (⟨n + 1, h⟩ : Fin cfg0.N)) (outsAt0 m c n (Nat.lt_of_succ_lt h)).2.2.2.1 := by
  by_cases h1 : (n + 1) % 64 = 63
  · rw [outsAt0_C m c (⟨n + 1, h⟩ : Fin cfg0.N) h0 h1]
    dsimp only
    exact Pieces.sout_C_0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2
  · rw [outsAt0_B m c (⟨n + 1, h⟩ : Fin cfg0.N) h0 h1]
    dsimp only
    exact Pieces.sout_B_0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2

/-- At every other point the running moment is the point before's with this point's weighted rows added. -/
theorem moment_next (c : Dev nD) (n : ℕ) (h : n + 1 < cfg0.N) (h0 : ¬(n + 1) % 64 = 0) :
    (outsAt0 m c (n + 1) h).2.2.2.2
      = k0_pay1 (k0_pay4 (iblk m c 0 (⟨n + 1, h⟩ : Fin cfg0.N))) (k0_pay8 (iblk m c 0 (⟨n + 1, h⟩ : Fin cfg0.N)) (iblk m c 1 (⟨n + 1, h⟩ : Fin cfg0.N))) (outsAt0 m c n (Nat.lt_of_succ_lt h)).2.2.2.2 := by
  by_cases h1 : (n + 1) % 64 = 63
  · rw [outsAt0_C m c (⟨n + 1, h⟩ : Fin cfg0.N) h0 h1]
    dsimp only
    exact Pieces.sout_C_1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2
  · rw [outsAt0_B m c (⟨n + 1, h⟩ : Fin cfg0.N) h0 h1]
    dsimp only
    exact Pieces.sout_B_1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2

/-- At a core's last point the mass written out is the running mass there. -/
theorem mass_out (c : Dev nD) (n : ℕ) (h : n + 1 < cfg0.N) (h1 : (n + 1) % 64 = 63) :
    (outsAt0 m c (n + 1) h).2.1 = (outsAt0 m c (n + 1) h).2.2.2.1 := by
  have h0 : ¬(n + 1) % 64 = 0 := by omega
  rw [outsAt0_C m c (⟨n + 1, h⟩ : Fin cfg0.N) h0 h1]
  dsimp only
  exact (Pieces.out_C_3 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2).trans
    (Pieces.sout_C_0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2).symm

/-- At a core's last point the moment written out is the running moment there. -/
theorem moment_out (c : Dev nD) (n : ℕ) (h : n + 1 < cfg0.N) (h1 : (n + 1) % 64 = 63) :
    (outsAt0 m c (n + 1) h).2.2.1 = (outsAt0 m c (n + 1) h).2.2.2.2 := by
  have h0 : ¬(n + 1) % 64 = 0 := by omega
  rw [outsAt0_C m c (⟨n + 1, h⟩ : Fin cfg0.N) h0 h1]
  dsimp only
  exact (Pieces.out_C_4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2).trans
    (Pieces.sout_C_1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (outsAt0 m c n (Nat.lt_of_succ_lt h)).2.2.2.1 (outsAt0 m c n (Nat.lt_of_succ_lt h)).2.2.2.2).symm

end Cert.Vq.Steps

end
-- ==== Proof.Entry.lean ====
/-
  Where the blocks sit in the arrays.

  Point `t` (numbered core by core, 64 to a core, 128 in all) reads rows `2048·t … 2048·t + 2047` of the data and the
  whole codebook, writes rows `2048·t …` of the similarities, and — at a core's last point — row `t / 64` of the two
  per-core outputs. Each index of an output array lies in the block of exactly the point one expects: row `n` of the
  similarities in point `n / 2048`'s, core `p`'s rows of the per-core outputs in point `64·p + 63`'s.
-/
import proofs.«181471_j45372034515504_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem

namespace Cert.Vq.Entry

open Cert.KernelIdeal Cert.KernelIdeal.Gen

variable {F : FTy → Type} [FloatOps F]
variable (m : (ℓ : Loc nD τ sig) → Buf (Elt F) ℓ)

theorem lt128 (t : Fin cfg0.N) : t.val < 128 := lt_of_lt_of_eq t.isLt (show cfg0.N = 128 from N_0)

/-- The block indices of the five windows, decided once over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 3) = t.val / 64 ∧ win0_3.index t (1 : Fin 3) = 0 ∧ win0_3.index t (2 : Fin 3) = 0 :=
  (by decide +kernel : ∀ t : Fin grid0.N, win0_3.index t (0 : Fin 3) = t.val / 64 ∧ win0_3.index t (1 : Fin 3) = 0 ∧ win0_3.index t (2 : Fin 3) = 0)
theorem idx4 : ∀ t : Fin cfg0.N, win0_4.index t (0 : Fin 3) = t.val / 64 ∧ win0_4.index t (1 : Fin 3) = 0 ∧ win0_4.index t (2 : Fin 3) = 0 :=
  (by decide +kernel : ∀ t : Fin grid0.N, win0_4.index t (0 : Fin 3) = t.val / 64 ∧ win0_4.index t (1 : Fin 3) = 0 ∧ win0_4.index t (2 : Fin 3) = 0)

/-- Row `r` of point `t`'s data block is row `2048·t + r` of the data. -/
theorem data_block_apply (c : Dev nD) (t : Fin cfg0.N) (r : Fin 2048) (q : Fin 512) (hr : t.val * 2048 + r.val < 262144) :
    (iblk m c 0 t : Vec F S2048x512 .f32) (ix2 r q)
      = (V m c main_arg0 : S262144x512.Idx → Elt F .f32) (ix2 (⟨t.val * 2048 + r.val, hr⟩ : Fin 262144) q) := by
  unfold iblk
  show V m c main_arg0 (((cfg0.win 0).blk t).view.emb (ix2 r q)) = _
  refine congrArg (V m c main_arg0) (funext fun a => Fin.ext ?_)
  match a with
  | ⟨0, _⟩ => show win0_0.index t (0 : Fin 2) * 2048 + 1 * r.val = t.val * 2048 + r.val; rw [(idx0 t).1]; omega
  | ⟨1, _⟩ => show win0_0.index t (1 : Fin 2) * 512 + 1 * q.val = q.val; rw [(idx0 t).2]; omega

/-- Every point's codebook block is the whole codebook. -/
theorem codebook_block (c : Dev nD) (t : Fin cfg0.N) :
    (iblk m c 1 t : Vec F S256x512 .f32) = (V m c main_v4 : S256x512.Idx → Elt F .f32) := by
  funext j
  unfold iblk
  show V m c main_v4 (((cfg0.win 1).blk t).view.emb j) = _
  refine congrArg (V m c main_v4) (funext fun a => Fin.ext ?_)
  match a with
  | ⟨0, _⟩ => show win0_1.index t (0 : Fin 2) * 256 + 1 * (j 0).val = (j 0).val; rw [(idx1 t).1]; omega
  | ⟨1, _⟩ => show win0_1.index t (1 : Fin 2) * 512 + 1 * (j 1).val = (j 1).val; rw [(idx1 t).2]; omega

/-- Membership in a point's block of the similarities, axis by axis. -/
theorem mem_blk2 (t : Fin cfg0.N) (i : S262144x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v5_0).slice (win0_2.rect t)).set ↔ _
  rw [View.set_slice_whole, Rect.mem_set_unit]
  exact Iff.rfl

theorem mem_blk3 (t : Fin cfg0.N) (i : S2x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v5_1).slice (win0_3.rect t)).set ↔ _
  rw [View.set_slice_whole, Rect.mem_set_unit]
  exact Iff.rfl

theorem mem_blk4 (t : Fin cfg0.N) (i : S2x256x512.Idx) :
    i ∈ ((cfg0.win 4).blk t).view.set ↔ ∀ a : Fin 3, win0_4.index t a * S1x256x512.size a ≤ (i a).val ∧ (i a).val < win0_4.index t a * S1x256x512.size a + S1x256x512.size a := by
  show i ∈ ((View.whole main_v5_2).slice (win0_4.rect t)).set ↔ _
  rw [View.set_slice_whole, Rect.mem_set_unit]
  exact Iff.rfl

/-- Row `n` of the similarities is written back by point `n / 2048`. -/
theorem cover2 (i : S262144x256.Idx) :
    ∃ t : Fin cfg0.N, (cfg0.win 2).flush t = true ∧ i ∈ ((cfg0.win 2).blk t).view.set := by
  have h0 : (i 0).val < 262144 := (i 0).isLt
  have h1 : (i 1).val < 256 := (i 1).isLt
  have hN : cfg0.N = 128 := N_0
  refine ⟨⟨(i 0).val / 2048, by rw [hN]; omega⟩, flush0_2 _, ?_⟩
  rw [mem_blk2]
  intro a
  match a with
  | ⟨0, _⟩ =>
    show win0_2.index _ (0 : Fin 2) * 2048 ≤ (i 0).val ∧ (i 0).val < win0_2.index _ (0 : Fin 2) * 2048 + 2048
    rw [(idx2 _).1]; dsimp only; omega
  | ⟨1, _⟩ =>
    show win0_2.index _ (1 : Fin 2) * 256 ≤ (i 1).val ∧ (i 1).val < win0_2.index _ (1 : Fin 2) * 256 + 256
    rw [(idx2 _).2]; omega

/-- Core `p`'s row of the mass output is written back by point `64·p + 63`. -/
theorem cover3 (i : S2x1x256.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 256 := (i 2).isLt
  have hN : cfg0.N = 128 := N_0
  refine ⟨⟨64 * (i 0).val + 63, by rw [hN]; omega⟩, (flush0_3 _).mpr (by dsimp only; omega), ?_⟩
  rw [mem_blk3]
  intro a
  match a with
  | ⟨0, _⟩ =>
    show win0_3.index _ (0 : Fin 3) * 1 ≤ (i 0).val ∧ (i 0).val < win0_3.index _ (0 : Fin 3) * 1 + 1
    rw [(idx3 _).1]; dsimp only; omega
  | ⟨1, _⟩ =>
    show win0_3.index _ (1 : Fin 3) * 1 ≤ (i 1).val ∧ (i 1).val < win0_3.index _ (1 : Fin 3) * 1 + 1
    rw [(idx3 _).2.1]; omega
  | ⟨2, _⟩ =>
    show win0_3.index _ (2 : Fin 3) * 256 ≤ (i 2).val ∧ (i 2).val < win0_3.index _ (2 : Fin 3) * 256 + 256
    rw [(idx3 _).2.2]; omega

/-- Core `p`'s rows of the moment output are written back by point `64·p + 63`. -/
theorem cover4 (i : S2x256x512.Idx) :
    ∃ t : Fin cfg0.N, (cfg0.win 4).flush t = true ∧ i ∈ ((cfg0.win 4).blk t).view.set := by
  have h0 : (i 0).val < 2 := (i 0).isLt
  have h1 : (i 1).val < 256 := (i 1).isLt
  have h2 : (i 2).val < 512 := (i 2).isLt
  have hN : cfg0.N = 128 := N_0
  refine ⟨⟨64 * (i 0).val + 63, by rw [hN]; omega⟩, (flush0_4 _).mpr (by dsimp only; omega), ?_⟩
  rw [mem_blk4]
  intro a
  match a with
  | ⟨0, _⟩ =>
    show win0_4.index _ (0 : Fin 3) * 1 ≤ (i 0).val ∧ (i 0).val < win0_4.index _ (0 : Fin 3) * 1 + 1
    rw [(idx4 _).1]; dsimp only; omega
  | ⟨1, _⟩ =>
    show win0_4.index _ (1 : Fin 3) * 256 ≤ (i 1).val ∧ (i 1).val < win0_4.index _ (1 : Fin 3) * 256 + 256
    rw [(idx4 _).2.1]; omega
  | ⟨2, _⟩ =>
    show win0_4.index _ (2 : Fin 3) * 512 ≤ (i 2).val ∧ (i 2).val < win0_4.index _ (2 : Fin 3) * 512 + 512
    rw [(idx4 _).2.2]; omega

end Cert.Vq.Entry

end
-- ==== Proof.Spec.lean ====
/-
  The mathematics of the certificate, with no program in sight.

  A row `x` of reals (extended: a float at the ideal values is an extended real) is scaled to unit length,
  `unit ε x = x / max (sqrt (∑ x²)) ε`. Its similarities to the rows of a codebook `v` are the inner products
  `sim`; the soft assignment `coeff` of the row to the codebook's rows is the softmax of its similarities, written
  with the row maximum `top` (a fold of `max` from a start value `b`) subtracted in the exponent. Summed over all
  rows these give, per codebook row, the assigned `mass` and the first `moment` (the mass-weighted sum of unit rows).
  Every one of these is a function of ONE row of `x` (and of the codebook): that is all that a cut of the rows into
  blocks needs. The last section restates mass and moment as sums over the naturals below `N`, the form in which a
  sum over consecutive blocks of rows meets the sum over all rows.
-/
import Idealize.ShloMosaic.PureOps.Ideal
import Idealize.ShloMosaic.Lib.ValueIdx

noncomputable section

namespace Cert.Vq

open Idealize.ShloMosaic

variable {N C K : ℕ}

/-- The length of a row, bounded below by `ε`. -/
def len (ε : EReal) (x : Fin C → EReal) : EReal := max (Ideal.sqrt (∑ c, x c * x c)) ε

/-- The row divided by its (bounded) length. -/
def unit (ε : EReal) (x : Fin C → EReal) (c : Fin C) : EReal := Ideal.div (x c) (len ε x)

/-- The inner products of a row `u` with the rows of `v`. -/
def score (u : Fin C → EReal) (v : Fin K → Fin C → EReal) (k : Fin K) : EReal := ∑ c, u c * v k c

/-- The largest entry of `s`, as the fold of `max` from `b`. -/
def top (b : EReal) (s : Fin K → EReal) : EReal := (Finset.univ : Finset (Fin K)).fold max b s

/-- The softmax of `s`, the maximum subtracted in the exponent. -/
def soft (b : EReal) (s : Fin K → EReal) (k : Fin K) : EReal :=
  Ideal.div (Ideal.exp (s k - top b s)) (∑ j, Ideal.exp (s j - top b s))

/-- Row `n` of `x`, scaled to unit length, against the codebook `v`. -/
def sim (ε : EReal) (x : Fin N → Fin C → EReal) (v : Fin K → Fin C → EReal) (n : Fin N) (k : Fin K) : EReal :=
  score (unit ε (x n)) v k

/-- The soft assignment of row `n` to the codebook's rows. -/
def coeff (ε b : EReal) (x : Fin N → Fin C → EReal) (v : Fin K → Fin C → EReal) (n : Fin N) (k : Fin K) : EReal :=
  soft b (sim ε x v n) k

/-- The mass assigned to codebook row `k`. -/
def mass (ε b : EReal) (x : Fin N → Fin C → EReal) (v : Fin K → Fin C → EReal) (k : Fin K) : EReal :=
  ∑ n, coeff ε b x v n k

/-- The mass-weighted sum of the unit rows, per codebook row. -/
def moment (ε b : EReal) (x : Fin N → Fin C → EReal) (v : Fin K → Fin C → EReal) (k : Fin K) (c : Fin C) : EReal :=
  ∑ n, coeff ε b x v n k * unit ε (x n) c

/-! ## Locality: entry `n` reads row `n` only -/

theorem sim_congr (ε : EReal) {N' : ℕ} (x : Fin N → Fin C → EReal) (x' : Fin N' → Fin C → EReal)
    (v : Fin K → Fin C → EReal) (n : Fin N) (n' : Fin N') (h : x n = x' n') (k : Fin K) :
    sim ε x v n k = sim ε x' v n' k := by
  unfold sim; rw [h]

theorem coeff_congr (ε b : EReal) {N' : ℕ} (x : Fin N → Fin C → EReal) (x' : Fin N' → Fin C → EReal)
    (v : Fin K → Fin C → EReal) (n : Fin N) (n' : Fin N') (h : x n = x' n') (k : Fin K) :
    coeff ε b x v n k = coeff ε b x' v n' k := by
  unfold coeff
  rw [show sim ε x v n = sim ε x' v n' from funext fun j => sim_congr ε x x' v n n' h j]

/-! ## Mass and moment as sums over the naturals below `N` -/

/-- The soft assignment of row `n`, zero from `N` on. -/
def coeffAt (ε b : EReal) (x : Fin N → Fin C → EReal) (v : Fin K → Fin C → EReal) (k : Fin K) (n : ℕ) : EReal :=
  if h : n < N then coeff ε b x v ⟨n, h⟩ k else 0

/-- The weighted unit row `n`, zero from `N` on. -/
def momentAt (ε b : EReal) (x : Fin N → Fin C → EReal) (v : Fin K → Fin C → EReal) (k : Fin K) (c : Fin C) (n : ℕ) : EReal :=
  if h : n < N then coeff ε b x v ⟨n, h⟩ k * unit ε (x ⟨n, h⟩) c else 0

theorem mass_eq_sum_range (ε b : EReal) (x : Fin N → Fin C → EReal) (v : Fin K → Fin C → EReal) (k : Fin K) :
    mass ε b x v k = ∑ n ∈ Finset.range N, coeffAt ε b x v k n := by
  rw [Finset.sum_range]
  exact Finset.sum_congr rfl fun n _ => by unfold coeffAt; rw [dif_pos n.isLt]

theorem moment_eq_sum_range (ε b : EReal) (x : Fin N → Fin C → EReal) (v : Fin K → Fin C → EReal) (k : Fin K) (c : Fin C) :
    moment ε b x v k c = ∑ n ∈ Finset.range N, momentAt ε b x v k c n := by
  rw [Finset.sum_range]
  exact Finset.sum_congr rfl fun n _ => by unfold momentAt; rw [dif_pos n.isLt]

end Cert.Vq

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.LibAxis0Sum.lean ====
/-
  General lemmas: the LEADING axis — sums over it, a product contracting it, and two unit axes put in front — read at an
  index, at the ideal values.

  * the host's sum over axis 0 of an `[a, b]` array is, at `k`, the initial value plus the sum over `p` of the entries
    `(p, k)`; of an `[a, b, c]` array, at `(k, j)`, the initial value plus the sum over `p` of the entries `(p, k, j)`;
  * the vector unit's sum over axis 0 of an `[a, b]` array (from the zero word) is the plain sum over the rows;
  * a matrix product `[k, a] × [k, b]` contracting both FIRST axes into a zero accumulator is the sum over `q` of
    `L (q, p) · R (q, j)`;
  * a `[b]` array cast to `[1, 1, b]` reads the operand at the trailing coordinate.
  Nothing here mentions a program: the extents are variables and the shape facts and dimension records are hypotheses.
-/
import Idealize.ShloMosaic.Lib.ValueLayout
import Idealize.ShloMosaic.Lib.ValueIdx
import Idealize.ShloMosaic.PureOps.Ideal.Laws

noncomputable section

namespace Cert.LibAxis0Sum

open Idealize.ShloMosaic Idealize.ShloMosaic.ValueIdx

/-- The reduced index `k` of an `[a, b]` array with row `p` put back on axis 0 is `(p, k)`. -/
theorem lift_first2 {a b : ℕ} (h : (⟨2, ![a, b]⟩ : Shape).Reduces [0] (⟨1, ![b]⟩ : Shape)) (k : Fin b)
    (p : Fin ((⟨2, ![a, b]⟩ : Shape).size 0)) : h.lift (ix1 k) p = ix2 (⟨p.val, p.isLt⟩ : Fin a) k := by
  funext ax; apply Fin.ext
  fin_cases ax <;> rfl

/-- The host's sum over axis 0 of an `[a, b]` array, read at `k`: the initial value plus the column's sum. -/
theorem hostFirstSum2_apply {a b : ℕ} (x : FVec Ideal ⟨2, ![a, b]⟩ .f32) (init : (⟨0, ![]⟩ : Shape).Idx → Ideal .f32)
    (h' : (⟨2, ![a, b]⟩ : Shape).ReducesTo [0] (⟨1, ![b]⟩ : Shape)) (hu : 0 < (⟨0, ![]⟩ : Shape).numel) (k : Fin b) :
    Host.reduceAdd x init h' hu (ix1 k) = init ix0 + ∑ p : Fin a, x (ix2 p k) := by
  have h : (⟨2, ![a, b]⟩ : Shape).Reduces [0] (⟨1, ![b]⟩ : Shape) := ⟨h'.1, Nat.one_pos, h'.2⟩
  show Ideal.hostReduceAdd h' x (init (Shape.Idx.first hu)) (ix1 k) = _
  rw [Ideal.hostReduceAdd_single h' h, show Shape.Idx.first hu = ix0 from eq_ix0 _]
  exact congrArg (init ix0 + ·) (Finset.sum_congr rfl fun p _ => congrArg x (lift_first2 h k p))

/-- The reduced index `(k, j)` of an `[a, b, c]` array with `p` put back on axis 0 is `(p, k, j)`. -/
theorem lift_first3 {a b c : ℕ} (h : (⟨3, ![a, b, c]⟩ : Shape).Reduces [0] (⟨2, ![b, c]⟩ : Shape)) (k : Fin b) (j : Fin c)
    (p : Fin ((⟨3, ![a, b, c]⟩ : Shape).size 0)) : h.lift (ix2 k j) p = ix3 (⟨p.val, p.isLt⟩ : Fin a) k j := by
  funext ax; apply Fin.ext
  fin_cases ax <;> rfl

/-- The host's sum over axis 0 of an `[a, b, c]` array, read at `(k, j)`: the initial value plus the sum over `p`. -/
theorem hostFirstSum3_apply {a b c : ℕ} (x : FVec Ideal ⟨3, ![a, b, c]⟩ .f32) (init : (⟨0, ![]⟩ : Shape).Idx → Ideal .f32)
    (h' : (⟨3, ![a, b, c]⟩ : Shape).ReducesTo [0] (⟨2, ![b, c]⟩ : Shape)) (hu : 0 < (⟨0, ![]⟩ : Shape).numel)
    (k : Fin b) (j : Fin c) :
    Host.reduceAdd x init h' hu (ix2 k j) = init ix0 + ∑ p : Fin a, x (ix3 p k j) := by
  have h : (⟨3, ![a, b, c]⟩ : Shape).Reduces [0] (⟨2, ![b, c]⟩ : Shape) := ⟨h'.1, Nat.succ_pos 1, h'.2⟩
  show Ideal.hostReduceAdd h' x (init (Shape.Idx.first hu)) (ix2 k j) = _
  rw [Ideal.hostReduceAdd_single h' h, show Shape.Idx.first hu = ix0 from eq_ix0 _]
  exact congrArg (init ix0 + ·) (Finset.sum_congr rfl fun p _ => congrArg x (lift_first3 h k j p))

/-- A matrix product of a `[k, a]` by a `[k, b]` array into the zero accumulator, whose dimension record contracts the
    FIRST axis of each operand (the four coordinate facts), is at `(p, j)` the sum over `q` of `L (q, p) · R (q, j)`. -/
theorem matmul_zero_tn_ix2 {a k b : ℕ} {φ₁ φ₂ : FTy} (D : DotDims ⟨2, ![k, a]⟩ ⟨2, ![k, b]⟩ ⟨2, ![a, b]⟩)
    (hr : D.contr.rank = 1) (hs : D.contr.size ⟨0, by omega⟩ = k)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (prec : Option ContractPrecision) (L : FVec Ideal ⟨2, ![k, a]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 q p) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 q p := funext fun ax => Fin.ext (by
    match ax with
    | ⟨0, _⟩ => exact (hl0 _ _).trans hq
    | ⟨1, _⟩ => exact hl1 _ _)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The sum over the rows of an `[a, b]` array, read at column `k`: the sum over `r` of the entries `(r, k)`. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32) (hacc : acc = FKind.add.neutral .f32 hφ) (k : Fin b) :
    multiReduction .add [0] ⟨1, ![b]⟩ src acc h hφ hacc (ix1 k) = ∑ r : Fin a, src (ix2 r k) := by
  refine (Ideal.multiReduction_add_single src acc h hφ hacc (ix1 k)).trans ?_
  exact Finset.sum_congr rfl fun r _ => congrArg src (lift_first2 h k r)

/-- A `[b]` array cast to `[1, 1, b]` reads, at `(u, v, k)`, the operand at `k`. -/
theorem shapeCast_b_11b_apply {α : Type} {b : ℕ} (x : (⟨1, ![b]⟩ : Shape).Idx → α) (h : (⟨1, ![b]⟩ : Shape).ShapeCasts ⟨3, ![1, 1, b]⟩)
    (u v : Fin 1) (k : Fin b) : shapeCast ⟨3, ![1, 1, b]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * b + k.val
    rw [hu, hv]; omega)

end Cert.LibAxis0Sum

end
-- ==== Proof.Body.lean ====
/-
  The arithmetic of the kernel's body, read one element at a time.

  Each value the body computes from a block of rows `x0` (2048 rows of 512 lanes) and the codebook `x1` (256 rows of 512
  lanes) is, at an index, one of the functions of the specification: the row scaled to unit length, its inner products
  with the codebook's rows, the softmax of those, and the two accumulators advanced by the block's mass and moment. At
  the ideal values a narrowing of the format is the identity, a matrix product into the zero array is a finite sum of
  products, and a reduction along one axis is a finite sum (or a fold of `max`) over that axis.
-/
import proofs.«181471_j45372034515504_1_alg».proof.Proof.Gen.KernelIdeal.Skeleton
import proofs.«181471_j45372034515504_1_alg».proof.Proof.Spec
import proofs.«181471_j45372034515504_1_alg».proof.Proof.LibDenseOps
import proofs.«181471_j45372034515504_1_alg».proof.Proof.LibBlockOps
import proofs.«181471_j45372034515504_1_alg».proof.Proof.LibAxis0Sum
import Idealize.ShloMosaic.Lib.ValueLayout
import Idealize.ShloMosaic.Lib.ValueIdx
import Idealize.ShloMosaic.Lib.Pipeline.Value
import Idealize.ShloMosaic.PureOps.Ideal.Laws

noncomputable section

namespace Cert.Vq.Body

open Cert.KernelIdeal Cert.KernelIdeal.Gen Idealize.ShloMosaic Idealize.ShloMosaic.ValueIdx Cert.LibAxis0Sum

/-- The lower bound of a row's length, as the word the body broadcasts. -/
local notation "εw" => (Ideal.ofBits FTy.f32 0x2B8CBCCC#32)
/-- The start value of the row maximum, as the word the reduction starts from. -/
local notation "bw" => (Ideal.ofBits FTy.f32 0xFF800000#32)
/-- A rank-2 array as a function of its two coordinates. -/
local macro:max "cur" x:term:max : term => `(fun p q => $x (ix2 p q))

/-! ## The two dimension records' coordinates -/

/-- The first product contracts the lanes of both operands: its left index is `(row, q)` … -/
theorem dotA_l0 (i : S2048x256.Idx) (q : dot_S2048x512_S256x512_S2048x256_1_1_0_0_n_n.contr.Idx) :
    (dot_S2048x512_S256x512_S2048x256_1_1_0_0_n_n.lhsIdx i q 0).val = (i 0).val := by
  unfold DotDims.lhsIdx
  rw [dif_neg (show ¬(0 : Fin S2048x512.rank) ∈ dot_S2048x512_S256x512_S2048x256_1_1_0_0_n_n.lhsBatch by decide), dif_pos (show (0 : Fin S2048x512.rank) ∈ dot_S2048x512_S256x512_S2048x256_1_1_0_0_n_n.lhsNonContracting by decide)]
  rfl
theorem dotA_l1 (i : S2048x256.Idx) (q : dot_S2048x512_S256x512_S2048x256_1_1_0_0_n_n.contr.Idx) :
    (dot_S2048x512_S256x512_S2048x256_1_1_0_0_n_n.lhsIdx i q 1).val = (q ⟨0, by decide⟩).val :=
  dot_S2048x512_S256x512_S2048x256_1_1_0_0_n_n.lhsIdx_val_of_single rfl i q
/-- … and its right index `(column, q)`. -/
theorem dotA_r0 (i : S2048x256.Idx) (q : dot_S2048x512_S256x512_S2048x256_1_1_0_0_n_n.contr.Idx) :
    (dot_S2048x512_S256x512_S2048x256_1_1_0_0_n_n.rhsIdx i q 0).val = (i 1).val := by
  unfold DotDims.rhsIdx
  rw [dif_neg (show ¬(0 : Fin S256x512.rank) ∈ dot_S2048x512_S256x512_S2048x256_1_1_0_0_n_n.rhsBatch by decide), dif_pos (show (0 : Fin S256x512.rank) ∈ dot_S2048x512_S256x512_S2048x256_1_1_0_0_n_n.rhsNonContracting by decide)]
  rfl
theorem dotA_r1 (i : S2048x256.Idx) (q : dot_S2048x512_S256x512_S2048x256_1_1_0_0_n_n.contr.Idx) :
    (dot_S2048x512_S256x512_S2048x256_1_1_0_0_n_n.rhsIdx i q 1).val = (q ⟨0, by decide⟩).val :=
  dot_S2048x512_S256x512_S2048x256_1_1_0_0_n_n.rhsIdx_val_of_single rfl i q

/-- The second product contracts the rows of both operands: its left index is `(q, row of the result)` … -/
theorem dotB_l0 (i : S256x512.Idx) (q : dot_S2048x256_S2048x512_S256x512_0_0_1_1_n_n.contr.Idx) :
    (dot_S2048x256_S2048x512_S256x512_0_0_1_1_n_n.lhsIdx i q 0).val = (q ⟨0, by decide⟩).val :=
  dot_S2048x256_S2048x512_S256x512_0_0_1_1_n_n.lhsIdx_val_of_single rfl i q
theorem dotB_l1 (i : S256x512.Idx) (q : dot_S2048x256_S2048x512_S256x512_0_0_1_1_n_n.contr.Idx) :
    (dot_S2048x256_S2048x512_S256x512_0_0_1_1_n_n.lhsIdx i q 1).val = (i 0).val := by
  unfold DotDims.lhsIdx
  rw [dif_neg (show ¬(1 : Fin S2048x256.rank) ∈ dot_S2048x256_S2048x512_S256x512_0_0_1_1_n_n.lhsBatch by decide), dif_pos (show (1 : Fin S2048x256.rank) ∈ dot_S2048x256_S2048x512_S256x512_0_0_1_1_n_n.lhsNonContracting by decide)]
  rfl
/-- … and its right index `(q, column of the result)`. -/
theorem dotB_r0 (i : S256x512.Idx) (q : dot_S2048x256_S2048x512_S256x512_0_0_1_1_n_n.contr.Idx) :
    (dot_S2048x256_S2048x512_S256x512_0_0_1_1_n_n.rhsIdx i q 0).val = (q ⟨0, by decide⟩).val :=
  dot_S2048x256_S2048x512_S256x512_0_0_1_1_n_n.rhsIdx_val_of_single rfl i q
theorem dotB_r1 (i : S256x512.Idx) (q : dot_S2048x256_S2048x512_S256x512_0_0_1_1_n_n.contr.Idx) :
    (dot_S2048x256_S2048x512_S256x512_0_0_1_1_n_n.rhsIdx i q 1).val = (i 1).val := by
  unfold DotDims.rhsIdx
  rw [dif_neg (show ¬(1 : Fin S2048x512.rank) ∈ dot_S2048x256_S2048x512_S256x512_0_0_1_1_n_n.rhsBatch by decide), dif_pos (show (1 : Fin S2048x512.rank) ∈ dot_S2048x256_S2048x512_S256x512_0_0_1_1_n_n.rhsNonContracting by decide)]
  rfl

variable (x0 : Vec Ideal S2048x512 .f32) (x1 : Vec Ideal S256x512 .f32)

/-- The scaled block at `(r, c)`: entry `c` of row `r` divided by the row's bounded length. -/
theorem pay4_apply (r : Fin 2048) (c : Fin 512) :
    k0_pay4 (F := Ideal) x0 (ix2 r c) = Cert.Vq.unit εw (cur x0 r) c := by
  unfold k0_pay4 Cert.Vq.unit Cert.Vq.len
  refine congrArg (Ideal.div (x0 (ix2 r c))) ?_
  refine (LibDenseOps.broadcastTo_a1_ab_apply _ broadcasts_S2048x1_S2048x512 r c).trans ?_
  refine congrArg (fun t => max (Ideal.sqrt t) εw) ?_
  refine (LibDenseOps.shapeCast_a_a1_apply _ shapeCasts_S2048_S2048x1 r 0).trans ?_
  exact LibDenseOps.laneSum_apply _ _ reduces_S2048x512_S2048 (.inl rfl) rfl r

/-- The similarities at `(r, k)`: the inner product of the scaled row `r` with the codebook's row `k`. -/
theorem pay5_apply (r : Fin 2048) (k : Fin 256) :
    k0_pay5 (F := Ideal) x0 x1 (ix2 r k) = Cert.Vq.sim εw (cur x0) (cur x1) r k := by
  unfold k0_pay5 Cert.Vq.sim Cert.Vq.score
  refine (LibBlockOps.matmul_zero_nt_ix2 dot_S2048x512_S256x512_S2048x256_1_1_0_0_n_n rfl rfl dotA_l0 dotA_l1 dotA_r0 dotA_r1
    none _ _ r k).trans ?_
  refine Finset.sum_congr rfl fun q _ => ?_
  rw [pay4_apply, shapeCast_self]
  rfl

/-- The soft assignment at `(r, k)`: the softmax of row `r`'s similarities, the row maximum being the fold of `max` over
    the row from the reduction's start value. -/
theorem pay6_apply (r : Fin 2048) (k : Fin 256) :
    k0_pay6 (F := Ideal) x0 x1 (ix2 r k) = Cert.Vq.coeff εw bw (cur x0) (cur x1) r k := by
  have h5 : (fun j : Fin 256 => k0_pay5 (F := Ideal) x0 x1 (ix2 r j)) = Cert.Vq.sim εw (cur x0) (cur x1) r :=
    funext fun j => pay5_apply x0 x1 r j
  unfold Cert.Vq.coeff
  rw [← h5]
  unfold k0_pay6 Cert.Vq.soft Cert.Vq.top
  generalize k0_pay5 (F := Ideal) x0 x1 = s
  -- the row maximum, spread over the lanes, read at any lane of row `r`
  have hm : ∀ j : Fin 256,
      broadcastTo S2048x256 (shapeCast S2048x1 (multiReduction (F := Ideal) .maximumf [1] S2048 s 0xFF800000#32
        reduces_S2048x256_S2048 (.inl rfl) rfl) shapeCasts_S2048_S2048x1) broadcasts_S2048x1_S2048x256 (ix2 r j)
        = (Finset.univ : Finset (Fin 256)).fold max bw (fun c => s (ix2 r c)) := fun j =>
    (LibDenseOps.broadcastTo_a1_ab_apply _ broadcasts_S2048x1_S2048x256 r j).trans
      ((LibDenseOps.shapeCast_a_a1_apply _ shapeCasts_S2048_S2048x1 r 0).trans
        (LibDenseOps.laneMax_apply s _ reduces_S2048x256_S2048 (.inl rfl) rfl r))
  refine congrArg₂ Ideal.div ?_ ?_
  · exact congrArg (fun t => Ideal.exp (s (ix2 r k) - t)) (hm k)
  · refine (LibDenseOps.broadcastTo_a1_ab_apply _ broadcasts_S2048x1_S2048x256 r k).trans ?_
    refine (LibDenseOps.shapeCast_a_a1_apply _ shapeCasts_S2048_S2048x1 r 0).trans ?_
    refine (LibDenseOps.laneSum_apply _ _ reduces_S2048x256_S2048 (.inl rfl) rfl r).trans ?_
    exact Finset.sum_congr rfl fun j _ => congrArg (fun t => Ideal.exp (s (ix2 r j) - t)) (hm j)

/-- The mass accumulator advanced by the block: at `k`, the old value plus the sum over the block's rows of their soft
    assignments to codebook row `k`. -/
theorem pay7_apply (acc : Vec Ideal S1x1x256 .f32) (k : Fin 256) :
    k0_pay7 (F := Ideal) x0 x1 acc (ix3 (0 : Fin 1) (0 : Fin 1) k)
      = acc (ix3 0 0 k) + ∑ r : Fin 2048, Cert.Vq.coeff εw bw (cur x0) (cur x1) r k := by
  unfold k0_pay7
  rw [shapeCast_self]
  refine congrArg (acc (ix3 0 0 k) + ·) ?_
  refine (shapeCast_b_11b_apply _ shapeCasts_S256_S1x1x256 0 0 k).trans ?_
  refine (colSum_apply _ _ reduces_S2048x256_S256 (.inl rfl) rfl k).trans ?_
  exact Finset.sum_congr rfl fun r _ => pay6_apply x0 x1 r k

/-! ## The two accumulators' first values -/

/-- The mass accumulator starts at zero. -/
theorem pay2_apply (k : Fin 256) : k0_pay2 (F := Ideal) (ix3 (0 : Fin 1) (0 : Fin 1) k) = 0 := by
  unfold k0_pay2
  rw [shapeCast_self]
  exact Ideal.ofBits_zero_f32

/-- The moment accumulator starts at zero. -/
theorem pay3_apply (k : Fin 256) (c : Fin 512) : k0_pay3 (F := Ideal) (ix3 (0 : Fin 1) k c) = 0 := by
  unfold k0_pay3
  rw [shapeCast_self]
  exact Ideal.ofBits_zero_f32

/-- The moment accumulator advanced by the block: at `(k, c)`, the old value plus the sum over the block's rows of the
    soft assignment to codebook row `k` times the scaled row's entry `c`. -/
theorem pay1_apply (acc : Vec Ideal S1x256x512 .f32) (k : Fin 256) (c : Fin 512) :
    k0_pay1 (F := Ideal) (k0_pay4 x0) (k0_pay8 x0 x1) acc (ix3 (0 : Fin 1) k c)
      = acc (ix3 0 k c)
        + ∑ r : Fin 2048, Cert.Vq.coeff εw bw (cur x0) (cur x1) r k * Cert.Vq.unit εw ((cur x0) r) c := by
  unfold k0_pay1
  rw [shapeCast_self]
  refine congrArg (acc (ix3 0 k c) + ·) ?_
  refine (shapeCast_ab_1ab_apply _ shapeCasts_S256x512_S1x256x512 0 k c).trans ?_
  refine (matmul_zero_tn_ix2 dot_S2048x256_S2048x512_S256x512_0_0_1_1_n_n rfl rfl dotB_l0 dotB_l1 dotB_r0 dotB_r1
    none _ _ k c).trans ?_
  refine Finset.sum_congr rfl fun r _ => ?_
  exact congrArg₂ (· * ·) (pay6_apply x0 x1 r k) (pay4_apply x0 r c)

end Cert.Vq.Body

end
-- ==== Proof.Sums.lean ====
/-
  The sums the grid computes, at the ideal values.

  With the data's rows `X` and the codebook's rows `W` as the region finds them, point `t` contributes the column sums
  of the soft assignment over its 2048 rows (`massBlock`) and the weighted unit rows (`momentBlock`): each is a sum over
  rows `2048·t + r` of the whole array, because a row's soft assignment reads that row only. Unfolding the recurrences,
  after point `n` the running mass is the sum of the blocks' contributions from the core's first point `64·(n / 64)` up
  to `n` — an induction on the point, the sum over a range growing by one term — and so what a core writes out is the
  sum over its 64 points. The similarities a point writes back are the similarities of its rows.
-/
import proofs.«181471_j45372034515504_1_alg».proof.Proof.Steps
import proofs.«181471_j45372034515504_1_alg».proof.Proof.Entry
import proofs.«181471_j45372034515504_1_alg».proof.Proof.Body
import proofs.«181471_j45372034515504_1_alg».proof.Proof.Spec

set_option maxRecDepth 16384

noncomputable section

open Idealize.ShloMosaic Idealize.ShloMosaic.TcCoe Idealize.ShloMosaic.ValueIdx Idealize.SL.Sem
open Idealize.ShloMosaic.Pipeline (Dat)

namespace Cert.Vq.Sums

open Cert.KernelIdeal Cert.KernelIdeal.Gen

variable (m : (ℓ : Loc nD τ sig) → Buf (Elt Ideal) ℓ)

/-- The lower bound of a row's length, as the word both programs use. -/
local notation "εw" => (Ideal.ofBits FTy.f32 0x2B8CBCCC#32)
/-- The start value of the row maximum, as the word both programs use. -/
local notation "bw" => (Ideal.ofBits FTy.f32 0xFF800000#32)

/-- The data's rows, as the region finds them. -/
def X (c : Dev nD) : Fin 262144 → Fin 512 → EReal :=
  fun n q => (V m c main_arg0 : S262144x512.Idx → Elt Ideal .f32) (ix2 n q)

/-- The codebook's unit rows, as the region finds them. -/
def W (c : Dev nD) : Fin 256 → Fin 512 → EReal :=
  fun k q => (V m c main_v4 : S256x512.Idx → Elt Ideal .f32) (ix2 k q)

theorem row_lt (t : Fin cfg0.N) (r : Fin 2048) : t.val * 2048 + r.val < 262144 := by
  have := Entry.lt128 t; have := r.isLt; omega

/-- Row `r` of point `t`'s block is row `2048·t + r` of the data. -/
theorem row_eq (c : Dev nD) (t : Fin cfg0.N) (r : Fin 2048) :
    (fun p q => (iblk m c 0 t : Vec Ideal S2048x512 .f32) (ix2 p q)) r = X m c ⟨t.val * 2048 + r.val, row_lt t r⟩ :=
  funext fun q => Entry.data_block_apply m c t r q (row_lt t r)

theorem codebook_eq (c : Dev nD) (t : Fin cfg0.N) : (fun p q => (iblk m c 1 t : Vec Ideal S256x512 .f32) (ix2 p q)) = W m c := by
  rw [Entry.codebook_block m c t]; rfl

/-- A block row's similarities are the data row's. -/
theorem sim_block (c : Dev nD) (t : Fin cfg0.N) (r : Fin 2048) (k : Fin 256) :
    sim εw (fun p q => (iblk m c 0 t : Vec Ideal S2048x512 .f32) (ix2 p q)) (fun p q => (iblk m c 1 t : Vec Ideal S256x512 .f32) (ix2 p q)) r k = sim εw (X m c) (W m c) ⟨t.val * 2048 + r.val, row_lt t r⟩ k := by
  rw [codebook_eq m c t]
  exact sim_congr εw _ (X m c) (W m c) r ⟨_, row_lt t r⟩ (row_eq m c t r) k

/-- A block row's soft assignment is the data row's. -/
theorem coeff_block (c : Dev nD) (t : Fin cfg0.N) (r : Fin 2048) (k : Fin 256) :
    coeff εw bw (fun p q => (iblk m c 0 t : Vec Ideal S2048x512 .f32) (ix2 p q)) (fun p q => (iblk m c 1 t : Vec Ideal S256x512 .f32) (ix2 p q)) r k = coeff εw bw (X m c) (W m c) ⟨t.val * 2048 + r.val, row_lt t r⟩ k := by
  rw [codebook_eq m c t]
  exact coeff_congr εw bw _ (X m c) (W m c) r ⟨_, row_lt t r⟩ (row_eq m c t r) k

/-- Point `t`'s contribution to the mass of codebook row `k`. -/
def massBlock (c : Dev nD) (k : Fin 256) (t : ℕ) : EReal :=
  ∑ r : Fin 2048, coeffAt εw bw (X m c) (W m c) k (t * 2048 + r.val)

/-- Point `t`'s contribution to the moment of codebook row `k`, lane `q`. -/
def momentBlock (c : Dev nD) (k : Fin 256) (q : Fin 512) (t : ℕ) : EReal :=
  ∑ r : Fin 2048, momentAt εw bw (X m c) (W m c) k q (t * 2048 + r.val)

theorem mass_block_eq (c : Dev nD) (t : Fin cfg0.N) (k : Fin 256) :
    ∑ r : Fin 2048, coeff εw bw (fun p q => (iblk m c 0 t : Vec Ideal S2048x512 .f32) (ix2 p q)) (fun p q => (iblk m c 1 t : Vec Ideal S256x512 .f32) (ix2 p q)) r k = massBlock m c k t.val := by
  unfold massBlock
  refine Finset.sum_congr rfl fun r _ => ?_
  unfold coeffAt
  rw [dif_pos (row_lt t r)]
  exact coeff_block m c t r k

theorem moment_block_eq (c : Dev nD) (t : Fin cfg0.N) (k : Fin 256) (q : Fin 512) :
    ∑ r : Fin 2048, coeff εw bw (fun p q => (iblk m c 0 t : Vec Ideal S2048x512 .f32) (ix2 p q)) (fun p q => (iblk m c 1 t : Vec Ideal S256x512 .f32) (ix2 p q)) r k * Cert.Vq.unit εw ((fun p q => (iblk m c 0 t : Vec Ideal S2048x512 .f32) (ix2 p q)) r) q
      = momentBlock m c k q t.val := by
  unfold momentBlock
  refine Finset.sum_congr rfl fun r _ => ?_
  unfold momentAt
  rw [dif_pos (row_lt t r), coeff_block m c t r k, row_eq m c t r]

/-! ## The running mass and moment -/

theorem mass_at_first (c : Dev nD) (n : ℕ) (h : n < cfg0.N) (h0 : n % 64 = 0) (k : Fin 256) :
    (outsAt0 m c n h).2.2.2.1 (ix3 (0 : Fin 1) (0 : Fin 1) k) = massBlock m c k n := by
  rw [Steps.mass_first m c n h h0]
  refine (Body.pay7_apply (iblk m c 0 ⟨n, h⟩) (iblk m c 1 ⟨n, h⟩) (k0_pay2 (F := Ideal)) k).trans ?_
  rw [Body.pay2_apply k, zero_add]
  exact mass_block_eq m c ⟨n, h⟩ k

theorem mass_at_next (c : Dev nD) (n : ℕ) (h : n + 1 < cfg0.N) (h0 : ¬(n + 1) % 64 = 0) (k : Fin 256) :
    (outsAt0 m c (n + 1) h).2.2.2.1 (ix3 (0 : Fin 1) (0 : Fin 1) k)
      = (outsAt0 m c n (Nat.lt_of_succ_lt h)).2.2.2.1 (ix3 (0 : Fin 1) (0 : Fin 1) k) + massBlock m c k (n + 1) := by
  rw [Steps.mass_next m c n h h0]
  refine (Body.pay7_apply (iblk m c 0 ⟨n + 1, h⟩) (iblk m c 1 ⟨n + 1, h⟩) _ k).trans ?_
  exact congrArg (_ + ·) (mass_block_eq m c ⟨n + 1, h⟩ k)

/-- After point `n` the running mass is the sum of the contributions of the core's points up to `n`. -/
theorem mass_run (c : Dev nD) (k : Fin 256) : ∀ (n : ℕ) (h : n < cfg0.N),
    (outsAt0 m c n h).2.2.2.1 (ix3 (0 : Fin 1) (0 : Fin 1) k)
      = ∑ s ∈ Finset.range (n % 64 + 1), massBlock m c k (64 * (n / 64) + s)
  | 0, h => by
    rw [mass_at_first m c 0 h rfl k, show (0 % 64 + 1) = 1 from rfl, Finset.sum_range_one]
  | n + 1, h => by
    by_cases h0 : (n + 1) % 64 = 0
    · have e1 : (n + 1) % 64 + 1 = 1 := by omega
      have e2 : 64 * ((n + 1) / 64) + 0 = n + 1 := by omega
      rw [mass_at_first m c (n + 1) h h0 k, e1, Finset.sum_range_one, e2]
    · have e1 : (n + 1) % 64 = n % 64 + 1 := by omega
      have e2 : (n + 1) / 64 = n / 64 := by omega
      have e3 : 64 * (n / 64) + (n % 64 + 1) = n + 1 := by omega
      rw [mass_at_next m c n h h0 k, mass_run c k n (Nat.lt_of_succ_lt h), e1, e2,
        Finset.sum_range_succ _ (n % 64 + 1), e3]

theorem moment_at_first (c : Dev nD) (n : ℕ) (h : n < cfg0.N) (h0 : n % 64 = 0) (k : Fin 256) (q : Fin 512) :
    (outsAt0 m c n h).2.2.2.2 (ix3 (0 : Fin 1) k q) = momentBlock m c k q n := by
  rw [Steps.moment_first m c n h h0]
  refine (Body.pay1_apply (iblk m c 0 ⟨n, h⟩) (iblk m c 1 ⟨n, h⟩) (k0_pay3 (F := Ideal)) k q).trans ?_
  rw [Body.pay3_apply k q, zero_add]
  exact moment_block_eq m c ⟨n, h⟩ k q

theorem moment_at_next (c : Dev nD) (n : ℕ) (h : n + 1 < cfg0.N) (h0 : ¬(n + 1) % 64 = 0) (k : Fin 256) (q : Fin 512) :
    (outsAt0 m c (n + 1) h).2.2.2.2 (ix3 (0 : Fin 1) k q)
      = (outsAt0 m c n (Nat.lt_of_succ_lt h)).2.2.2.2 (ix3 (0 : Fin 1) k q) + momentBlock m c k q (n + 1) := by
  rw [Steps.moment_next m c n h h0]
  refine (Body.pay1_apply (iblk m c 0 ⟨n + 1, h⟩) (iblk m c 1 ⟨n + 1, h⟩) _ k q).trans ?_
  exact congrArg (_ + ·) (moment_block_eq m c ⟨n + 1, h⟩ k q)

/-- After point `n` the running moment is the sum of the contributions of the core's points up to `n`. -/
theorem moment_run (c : Dev nD) (k : Fin 256) (q : Fin 512) : ∀ (n : ℕ) (h : n < cfg0.N),
    (outsAt0 m c n h).2.2.2.2 (ix3 (0 : Fin 1) k q)
      = ∑ s ∈ Finset.range (n % 64 + 1), momentBlock m c k q (64 * (n / 64) + s)
  | 0, h => by
    rw [moment_at_first m c 0 h rfl k q, show (0 % 64 + 1) = 1 from rfl, Finset.sum_range_one]
  | n + 1, h => by
    by_cases h0 : (n + 1) % 64 = 0
    · have e1 : (n + 1) % 64 + 1 = 1 := by omega
      have e2 : 64 * ((n + 1) / 64) + 0 = n + 1 := by omega
      rw [moment_at_first m c (n + 1) h h0 k q, e1, Finset.sum_range_one, e2]
    · have e1 : (n + 1) % 64 = n % 64 + 1 := by omega
      have e2 : (n + 1) / 64 = n / 64 := by omega
      have e3 : 64 * (n / 64) + (n % 64 + 1) = n + 1 := by omega
      rw [moment_at_next m c n h h0 k q, moment_run c k q n (Nat.lt_of_succ_lt h), e1, e2,
        Finset.sum_range_succ _ (n % 64 + 1), e3]

end Cert.Vq.Sums

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.Arrays.lean ====
/-
  The three arrays the region leaves.

  The similarities: entry `(n, k)` is the similarity of data row `n` to codebook row `k` — each point writes back its
  2048 rows, and the points' blocks tile the array. The per-core mass and moment: core `p`'s row is the sum of the
  contributions of its 64 points `64·p … 64·p + 63`, written back once, at the core's last point. Summed over the two
  cores, and each point's contribution over its 2048 rows, these are the sums over all 262144 rows: `2 · 64 · 2048`
  consecutive naturals cut into blocks twice.
-/
import proofs.«181471_j45372034515504_1_alg».proof.Proof.Sums
import proofs.«181471_j45372034515504_1_alg».proof.Proof.LibBlockSum

set_option maxRecDepth 16384

noncomputable section

open Idealize.ShloMosaic Idealize.ShloMosaic.TcCoe Idealize.ShloMosaic.ValueIdx Idealize.SL.Sem
open Idealize.ShloMosaic.Pipeline (Dat)

namespace Cert.Vq.Arrays

open Cert.KernelIdeal Cert.KernelIdeal.Gen Cert.Vq.Sums

variable (m : (ℓ : Loc nD τ sig) → Buf (Elt Ideal) ℓ)

local notation "εw" => (Ideal.ofBits FTy.f32 0x2B8CBCCC#32)
local notation "bw" => (Ideal.ofBits FTy.f32 0xFF800000#32)

/-- The similarities of every data row to every codebook row. -/
def simArr (c : Dev nD) : S262144x256.Idx → EReal := fun i => sim εw (X m c) (W m c) (i 0) (i 1)

/-- Per core, the mass its 64 points assign to each codebook row. -/
def massArr (c : Dev nD) : S2x1x256.Idx → EReal :=
  fun i => ∑ s ∈ Finset.range 64, massBlock m c (i 2) (64 * (i 0).val + s)

/-- Per core, the moment its 64 points assign to each codebook row. -/
def momentArr (c : Dev nD) : S2x256x512.Idx → EReal :=
  fun i => ∑ s ∈ Finset.range 64, momentBlock m c (i 1) (i 2) (64 * (i 0).val + s)

/-- What point `t` writes back of the similarities is its block of `simArr`. -/
theorem flushed2 (c : Dev nD) (t : Fin cfg0.N) :
    (dats m 0 c).flushed 2 t = ((cfg0.win 2).blk t).view.read (Elt Ideal) (simArr m c) := by
  show (cfg0.win 2).cut (grid0.coords t) ((dats m 0 c).after 2 t) = _
  rw [after0_2, Steps.sims_eq m c t.val t.isLt]
  have key : ∀ (r : Fin 2048) (k : Fin 256),
      k0_pay5 (F := Ideal) (iblk m c 0 t) (iblk m c 1 t) (ix2 r k) = simArr m c (((cfg0.win 2).blk t).view.emb (ix2 r k)) := by
    intro r k
    refine (Body.pay5_apply (iblk m c 0 t) (iblk m c 1 t) r k).trans ?_
    refine (sim_block m c t r k).trans ?_
    have e0 : (((cfg0.win 2).blk t).view.emb (ix2 r k)) 0 = (⟨t.val * 2048 + r.val, row_lt t r⟩ : Fin 262144) :=
      Fin.ext (by show win0_2.index t (0 : Fin 2) * 2048 + 1 * r.val = t.val * 2048 + r.val; rw [(Entry.idx2 t).1]; omega)
    have e1 : (((cfg0.win 2).blk t).view.emb (ix2 r k)) 1 = k :=
      Fin.ext (by show win0_2.index t (1 : Fin 2) * 256 + 1 * k.val = k.val; rw [(Entry.idx2 t).2]; omega)
    show _ = sim εw (X m c) (W m c) ((((cfg0.win 2).blk t).view.emb (ix2 r k)) 0) ((((cfg0.win 2).blk t).view.emb (ix2 r k)) 1)
    rw [e0, e1]
  funext y
  obtain ⟨r, k, rfl⟩ : ∃ (r : Fin 2048) (k : Fin 256), y = ix2 r k := ⟨y 0, y 1, eq_ix2 y⟩
  exact key r k

/-- What a core's last point writes back of the mass is the core's row of `massArr`. -/
theorem flushed3 (c : Dev nD) (t : Fin cfg0.N) (hf : (cfg0.win 3).flush t = true) :
    (dats m 0 c).flushed 3 t = ((cfg0.win 3).blk t).view.read (Elt Ideal) (massArr m c) := by
  have h63 : t.val % 64 = 63 := (flush0_3 t).mp hf
  obtain ⟨tv, ht⟩ := t
  obtain ⟨n, rfl⟩ : ∃ n, tv = n + 1 := ⟨tv - 1, by dsimp only at h63; omega⟩
  dsimp only at h63
  show (cfg0.win 3).cut (grid0.coords ⟨n + 1, ht⟩) ((dats m 0 c).after 3 ⟨n + 1, ht⟩) = _
  rw [after0_3]
  show (outsAt0 m c (n + 1) ht).2.1 = _
  rw [Steps.mass_out m c n ht h63]
  funext y
  obtain ⟨a, b, k, rfl⟩ : ∃ (a : Fin 1) (b : Fin 1) (k : Fin 256), y = ix3 a b k := ⟨y 0, y 1, y 2, eq_ix3 y⟩
  obtain rfl : a = 0 := Subsingleton.elim _ _
  obtain rfl : b = 0 := Subsingleton.elim _ _
  have e0 : ((((cfg0.win 3).blk ⟨n + 1, ht⟩).view.emb (ix3 (0 : Fin 1) (0 : Fin 1) k)) 0).val = (n + 1) / 64 := by
    show win0_3.index ⟨n + 1, ht⟩ (0 : Fin 3) * 1 + 1 * 0 = (n + 1) / 64
    rw [(Entry.idx3 ⟨n + 1, ht⟩).1]; dsimp only; omega
  have e2 : (((cfg0.win 3).blk ⟨n + 1, ht⟩).view.emb (ix3 (0 : Fin 1) (0 : Fin 1) k)) 2 = k :=
    Fin.ext (by show win0_3.index ⟨n + 1, ht⟩ (2 : Fin 3) * 256 + 1 * k.val = k.val; rw [(Entry.idx3 ⟨n + 1, ht⟩).2.2]; omega)
  show (outsAt0 m c (n + 1) ht).2.2.2.1 (ix3 (0 : Fin 1) (0 : Fin 1) k)
    = ∑ s ∈ Finset.range 64, massBlock m c ((((cfg0.win 3).blk ⟨n + 1, ht⟩).view.emb (ix3 (0 : Fin 1) (0 : Fin 1) k)) 2)
        (64 * ((((cfg0.win 3).blk ⟨n + 1, ht⟩).view.emb (ix3 (0 : Fin 1) (0 : Fin 1) k)) 0).val + s)
  rw [e0, e2, mass_run m c k (n + 1) ht, h63]

/-- What a core's last point writes back of the moment is the core's rows of `momentArr`. -/
theorem flushed4 (c : Dev nD) (t : Fin cfg0.N) (hf : (cfg0.win 4).flush t = true) :
    (dats m 0 c).flushed 4 t = ((cfg0.win 4).blk t).view.read (Elt Ideal) (momentArr m c) := by
  have h63 : t.val % 64 = 63 := (flush0_4 t).mp hf
  obtain ⟨tv, ht⟩ := t
  obtain ⟨n, rfl⟩ : ∃ n, tv = n + 1 := ⟨tv - 1, by dsimp only at h63; omega⟩
  dsimp only at h63
  show (cfg0.win 4).cut (grid0.coords ⟨n + 1, ht⟩) ((dats m 0 c).after 4 ⟨n + 1, ht⟩) = _
  rw [after0_4]
  show (outsAt0 m c (n + 1) ht).2.2.1 = _
  rw [Steps.moment_out m c n ht h63]
  funext y
  obtain ⟨a, k, q, rfl⟩ : ∃ (a : Fin 1) (k : Fin 256) (q : Fin 512), y = ix3 a k q := ⟨y 0, y 1, y 2, eq_ix3 y⟩
  obtain rfl : a = 0 := Subsingleton.elim _ _
  have e0 : ((((cfg0.win 4).blk ⟨n + 1, ht⟩).view.emb (ix3 (0 : Fin 1) k q)) 0).val = (n + 1) / 64 := by
    show win0_4.index ⟨n + 1, ht⟩ (0 : Fin 3) * 1 + 1 * 0 = (n + 1) / 64
    rw [(Entry.idx4 ⟨n + 1, ht⟩).1]; dsimp only; omega
  have e1 : (((cfg0.win 4).blk ⟨n + 1, ht⟩).view.emb (ix3 (0 : Fin 1) k q)) 1 = k :=
    Fin.ext (by show win0_4.index ⟨n + 1, ht⟩ (1 : Fin 3) * 256 + 1 * k.val = k.val; rw [(Entry.idx4 ⟨n + 1, ht⟩).2.1]; omega)
  have e2 : (((cfg0.win 4).blk ⟨n + 1, ht⟩).view.emb (ix3 (0 : Fin 1) k q)) 2 = q :=
    Fin.ext (by show win0_4.index ⟨n + 1, ht⟩ (2 : Fin 3) * 512 + 1 * q.val = q.val; rw [(Entry.idx4 ⟨n + 1, ht⟩).2.2]; omega)
  show (outsAt0 m c (n + 1) ht).2.2.2.2 (ix3 (0 : Fin 1) k q)
    = ∑ s ∈ Finset.range 64, momentBlock m c ((((cfg0.win 4).blk ⟨n + 1, ht⟩).view.emb (ix3 (0 : Fin 1) k q)) 1)
        ((((cfg0.win 4).blk ⟨n + 1, ht⟩).view.emb (ix3 (0 : Fin 1) k q)) 2)
        (64 * ((((cfg0.win 4).blk ⟨n + 1, ht⟩).view.emb (ix3 (0 : Fin 1) k q)) 0).val + s)
  rw [e0, e1, e2, moment_run m c k q (n + 1) ht, h63]

/-- The similarities array after the run. -/
theorem final2 (c : Dev nD) : (dats m 0 c).arrAt 2 cfg0.N = simArr m c :=
  (dats m 0 c).arrAt_eq_of_cover 2 (simArr m c) (fun t _ => flushed2 m c t) Entry.cover2

/-- The per-core mass array after the run. -/
theorem final3 (c : Dev nD) : (dats m 0 c).arrAt 3 cfg0.N = massArr m c :=
  (dats m 0 c).arrAt_eq_of_cover 3 (massArr m c) (flushed3 m c) Entry.cover3

/-- The per-core moment array after the run. -/
theorem final4 (c : Dev nD) : (dats m 0 c).arrAt 4 cfg0.N = momentArr m c :=
  (dats m 0 c).arrAt_eq_of_cover 4 (momentArr m c) (flushed4 m c) Entry.cover4

/-! ## The two cores together: the sums over all rows -/

/-- The two cores' masses add up to the mass over all rows. -/
theorem mass_total (c : Dev nD) (k : Fin 256) :
    ∑ p : Fin 2, ∑ s ∈ Finset.range 64, massBlock m c k (64 * p.val + s) = mass εw bw (X m c) (W m c) k := by
  rw [mass_eq_sum_range, ← Finset.sum_range (fun p => ∑ s ∈ Finset.range 64, massBlock m c k (64 * p + s))]
  have e : ∀ p s : ℕ, 64 * p + s = p * 64 + s := fun p s => by omega
  simp only [e]
  rw [LibBlockSum.sum_range_blocks (fun t => massBlock m c k t) 2 64]
  unfold massBlock
  rw [show (2 * 64 : ℕ) = 128 from rfl,
    LibBlockSum.sum_fin_blocks (fun n => coeffAt εw bw (X m c) (W m c) k n) 128 2048]
  exact (Finset.sum_range (fun n => coeffAt εw bw (X m c) (W m c) k n)).symm

/-- The two cores' moments add up to the moment over all rows. -/
theorem moment_total (c : Dev nD) (k : Fin 256) (q : Fin 512) :
    ∑ p : Fin 2, ∑ s ∈ Finset.range 64, momentBlock m c k q (64 * p.val + s) = moment εw bw (X m c) (W m c) k q := by
  rw [moment_eq_sum_range, ← Finset.sum_range (fun p => ∑ s ∈ Finset.range 64, momentBlock m c k q (64 * p + s))]
  have e : ∀ p s : ℕ, 64 * p + s = p * 64 + s := fun p s => by omega
  simp only [e]
  rw [LibBlockSum.sum_range_blocks (fun t => momentBlock m c k q t) 2 64]
  unfold momentBlock
  rw [show (2 * 64 : ℕ) = 128 from rfl,
    LibBlockSum.sum_fin_blocks (fun n => momentAt εw bw (X m c) (W m c) k q n) 128 2048]
  exact (Finset.sum_range (fun n => momentAt εw bw (X m c) (W m c) k q n)).symm

end Cert.Vq.Arrays

end
-- ==== Proof.Tail.lean ====
/-
  The last step, shared by both programs: the codebook's moving-average update.

  From the unit-row codebook `v`, the mass `cs` and the moment `t` assigned in this batch and the running count
  `cnt`, the new count is `cnt + cs`, the step size is `α = cs / (cnt + cs)` per codebook row, and the new codebook is
  `(1 − α) · v + α · (t / cs)`, each row's factor spread along the row. Both programs compute it with the same host
  operations in the same order, so it is stated once, as one term at any float instance, and never opened: the two
  sides are equal because its four arguments are.
-/
import Idealize.ShloMosaic.PureOps.Ideal

noncomputable section

namespace Cert.Vq.Tail

open Idealize.ShloMosaic

variable {F : FTy → Type} [FloatOps F]

abbrev A0 : Shape := ⟨0, ![]⟩
abbrev A1 : Shape := ⟨1, ![256]⟩
abbrev A21 : Shape := ⟨2, ![256, 1]⟩
abbrev A2 : Shape := ⟨2, ![256, 512]⟩

/-- The new count: the running count plus the mass assigned in this batch. -/
def count (cnt cs : FVec F A1 .f32) : FVec F A1 .f32 := addf cnt cs

/-- The new codebook `(1 − α) · v + α · (t / cs)` with `α = cs / (cnt + cs)`. -/
def update (h0 : A0.BroadcastsInDim A21 (![] : Fin 0 → Fin A21.rank)) (h1 : A1.BroadcastsInDim A21 (![0] : Fin 1 → Fin A21.rank))
    (h2 : A21.BroadcastsInDim A2 (![0, 1] : Fin 2 → Fin A2.rank))
    (v : FVec F A2 .f32) (cs : FVec F A1 .f32) (t : FVec F A2 .f32) (cnt : FVec F A1 .f32) : FVec F A2 .f32 :=
  addf
    (mulf (broadcastInDim A2 ![0, 1] h2
        (subf (broadcastInDim A21 ![] h0 (constant (F := F) A0 .f32 0x3F800000#32))
          (broadcastInDim A21 ![0] h1 (Host.divf cs (addf cnt cs))))) v)
    (mulf (broadcastInDim A2 ![0, 1] h2 (broadcastInDim A21 ![0] h1 (Host.divf cs (addf cnt cs))))
      (Host.divf t (broadcastInDim A2 ![0, 1] h2 (broadcastInDim A21 ![0] h1 cs))))

end Cert.Vq.Tail

end
-- ==== Proof.KernelRun.lean ====
/-
  The kernel's run, read: what its three results hold.

  After the region the program adds the two cores' rows of mass and of moment and applies the codebook update. The
  region's arrays are the three of the previous module; the sums over the two cores are the mass and the moment over all
  rows; the update is the shared last step applied to the codebook as the region found it, those two sums and the count.
-/
import proofs.«181471_j45372034515504_1_alg».proof.Proof.Arrays
import proofs.«181471_j45372034515504_1_alg».proof.Proof.Tail
import proofs.«181471_j45372034515504_1_alg».proof.Proof.LibAxis0Sum
import proofs.«181471_j45372034515504_1_alg».proof.Proof.LibBlockOps
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.ShloMosaic.ValueIdx Idealize.SL.Sem
open Idealize.ShloMosaic.StableHlo
open Idealize.ShloMosaic.Pipeline (Dat)

namespace Cert.Vq.KernelRun

open Cert.KernelIdeal Cert.KernelIdeal.Gen Cert.Vq.Sums Cert.Vq.Arrays

variable (m : (ℓ : Loc nD τ sig) → Buf (Elt Ideal) ℓ) (ρ : Dev nD → PrngReg)

local notation "εw" => (Ideal.ofBits FTy.f32 0x2B8CBCCC#32)
local notation "bw" => (Ideal.ofBits FTy.f32 0xFF800000#32)

/-- What the lines after the region read of a buffer: the region's arrays as it left them, the others as it found them. -/
abbrev afterRegion (c : Dev nD) (b : Ref sig .tc) : Buf (Elt Ideal) ((c.tc : Thread nD τ).loc b) :=
  Pipeline.withArrays (cfgs 0).spec c (V0 m c) (fun w => (dats m 0 c).arrAt w (cfgs 0).N) (Proc.devRef .tc b)

/-- The two cores' masses, added. -/
abbrev massK (c : Dev nD) : S256.Idx → Elt Ideal .f32 :=
  Host.reduceAdd (shapeCast S2x256 (afterRegion m c main_v5_1 : S2x1x256.Idx → Elt Ideal .f32) shapeCasts_S2x1x256_S2x256)
    (constant (F := Ideal) S_ .f32 0x00000000#32) reducesTo_S2x256_S256_d0 h_S_

/-- The two cores' moments, added. -/
abbrev momK (c : Dev nD) : S256x512.Idx → Elt Ideal .f32 :=
  Host.reduceAdd (afterRegion m c main_v5_2 : S2x256x512.Idx → Elt Ideal .f32)
    (constant (F := Ideal) S_ .f32 0x00000000#32) reducesTo_S2x256x512_S256x512_d0 h_S_

/-- The new codebook is the shared last step of what the lines after the region read. -/
theorem tail_update (c : Dev nD) :
    (Pipeline.afterTail₀ cfgs (dats m) 0 (V0 m) [hostOps1] c main_v21 : S256x512.Idx → Elt Ideal .f32)
      = Tail.update (F := Ideal) bcast_S_S256x1 bcast_S256_S256x1_0 bcast_S256x1_S256x512_0_1 (afterRegion m c main_v4) (massK m c) (momK m c)
          (afterRegion m c main_arg2) := by
  refine Eq.trans (b := ?mid) ?h1 ?h2
  case h1 =>
    unfold Pipeline.afterTail₀
    show StableHlo.after hostOps1 _ (Proc.devRef .tc main_v21) = _
    after_results
  case h2 => rfl

/-- The new count likewise. -/
theorem tail_count (c : Dev nD) :
    (Pipeline.afterTail₀ cfgs (dats m) 0 (V0 m) [hostOps1] c main_v12 : S256.Idx → Elt Ideal .f32)
      = Tail.count (F := Ideal) (afterRegion m c main_arg2) (massK m c) := by
  refine Eq.trans (b := ?mid) ?h1 ?h2
  case h1 =>
    unfold Pipeline.afterTail₀
    show StableHlo.after hostOps1 _ (Proc.devRef .tc main_v12) = _
    after_results
  case h2 => rfl

/-- The codebook is an input of the region: it is read after the region as the region found it. -/
theorem after_codebook (c : Dev nD) : (afterRegion m c main_v4 : S256x512.Idx → Elt Ideal .f32) = V m c main_v4 :=
  (Pipeline.withArrays_arr spec0 launch0.win.arr_inj c (V0 m c) (fun w => (dats m 0 c).arrAt w cfg0.N) 1).trans
    (((dats m 0 c).arrAt_in 1 rfl _).trans (A_eq m c 1))

theorem after_mass (c : Dev nD) : (afterRegion m c main_v5_1 : S2x1x256.Idx → Elt Ideal .f32) = massArr m c :=
  (Pipeline.withArrays_arr spec0 launch0.win.arr_inj c (V0 m c) (fun w => (dats m 0 c).arrAt w cfg0.N) 3).trans (final3 m c)

theorem after_moment (c : Dev nD) : (afterRegion m c main_v5_2 : S2x256x512.Idx → Elt Ideal .f32) = momentArr m c :=
  (Pipeline.withArrays_arr spec0 launch0.win.arr_inj c (V0 m c) (fun w => (dats m 0 c).arrAt w cfg0.N) 4).trans (final4 m c)

/-- The count is no array of the region and no line before it writes it. -/
theorem after_count (c : Dev nD) : (afterRegion m c main_arg2 : S256.Idx → Elt Ideal .f32) = m ((c.tc : Thread nD τ).loc main_arg2) :=
  (Pipeline.withArrays_of_ne _ c (V0 m c) _ main_arg2 (by exact (by decide : ∀ w, Pipeline.arrRef spec0 w ≠ main_arg2))).trans
    (V_main_arg2 m c)

/-- The two cores' masses add up to the mass over all rows. -/
theorem massK_apply (c : Dev nD) (k : Fin 256) : massK m c (ix1 k) = mass εw bw (X m c) (W m c) k := by
  refine (LibAxis0Sum.hostFirstSum2_apply (a := 2) (b := 256) _ _ reducesTo_S2x256_S256_d0 h_S_ k).trans ?_
  rw [show (constant (F := Ideal) S_ .f32 0x00000000#32) ix0 = (0 : EReal) from Ideal.ofBits_zero_f32, zero_add]
  refine Eq.trans (Finset.sum_congr rfl fun p _ => ?_) (mass_total m c k)
  refine (LibBlockOps.shapeCast_a1c_ac_apply (a := 2) (c := 256) _ shapeCasts_S2x1x256_S2x256 p k).trans ?_
  rw [after_mass m c]
  rfl

/-- The two cores' moments add up to the moment over all rows. -/
theorem momK_apply (c : Dev nD) (k : Fin 256) (q : Fin 512) : momK m c (ix2 k q) = moment εw bw (X m c) (W m c) k q := by
  refine (LibAxis0Sum.hostFirstSum3_apply (a := 2) (b := 256) (c := 512) _ _ reducesTo_S2x256x512_S256x512_d0 h_S_ k q).trans ?_
  rw [show (constant (F := Ideal) S_ .f32 0x00000000#32) ix0 = (0 : EReal) from Ideal.ofBits_zero_f32, zero_add]
  refine Eq.trans (Finset.sum_congr rfl fun p _ => ?_) (moment_total m c k q)
  rw [after_moment m c]
  rfl

/-- THE RUN: every weakly fair execution terminates with the similarities, the updated codebook and the new count at
    these terms, and the three arguments unchanged. -/
theorem run : θ_run defs (onTc (τ := τ) (main (F := Ideal))) ⟨m, fun _ => 0, ρ⟩ (fun r => ∀ c : Dev nD,
      r.2.mem ((c.tc : Thread nD τ).loc main_v5_0) = simArr m c
      ∧ r.2.mem ((c.tc : Thread nD τ).loc main_v21)
          = Tail.update (F := Ideal) bcast_S_S256x1 bcast_S256_S256x1_0 bcast_S256x1_S256x512_0_1 (V m c main_v4) (massK m c) (momK m c)
              (m ((c.tc : Thread nD τ).loc main_arg2))
      ∧ r.2.mem ((c.tc : Thread nD τ).loc main_v12) = Tail.count (F := Ideal) (m ((c.tc : Thread nD τ).loc main_arg2)) (massK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (final2 m c),
      ((h c).2 main_v21 (Pipeline.mem_restRefs_of main_v21 (by decide) (by decide))).trans
        ((tail_update m c).trans (by rw [after_codebook m c, after_count m c])),
      ((h c).2 main_v12 (Pipeline.mem_restRefs_of main_v12 (by decide) (by decide))).trans
        ((tail_count m c).trans (by rw [after_count m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Vq.KernelRun

end
-- ==== Proof.RefSide.lean ====
/-
  The reference's stages, read at an index, are the functions of the specification.

  Row n of the input is divided by its length bounded below by ε (the unit row); the similarities of the unit row
  to the rows of the codebook are inner products; the soft assignment is the softmax of the similarities with the
  row maximum subtracted in the exponent; the mass of a codebook row is the sum over all input rows of the soft
  assignments, and its moment the sum of the unit rows weighted by them. The only laws used are 0 + a = a,
  1 * a = a, max b m = m for a fold m of max started at b, and the naming of an index by its coordinates.
-/
import proofs.«181471_j45372034515504_1_alg».proof.Proof.Gen.ReferenceIdeal.Read
import proofs.«181471_j45372034515504_1_alg».proof.Proof.Spec
import proofs.«181471_j45372034515504_1_alg».proof.Proof.LibDenseOps
import Idealize.ShloMosaic.PureOps.Ideal.Laws
import Idealize.ShloMosaic.Lib.ValueIdx

noncomputable section

namespace Cert.Vq.Ref

open Cert.ReferenceIdeal Cert.ReferenceIdeal.Gen Cert.ReferenceIdeal.Read Idealize.ShloMosaic Idealize.ShloMosaic.ValueIdx

/-- The word of the float one is the number one. -/
theorem ofBits_one_f32 : Ideal.ofBits .f32 0x3F800000#32 = 1 := by
  simp [Ideal.ofBits, Ideal.ieee]
  rw [← EReal.coe_mul, ← EReal.coe_one]
  norm_num

variable (x0 : (⟨S262144x512, .f32⟩ : BufTy).Contents (Elt Ideal)) (x1 : (⟨S256x512, .f32⟩ : BufTy).Contents (Elt Ideal))

/-! ## The unit rows -/

theorem idx_unit (n : Fin 262144) (c k : Fin 512) :
    idx_main_call0_v1 (idx_main_call0_v2 (idx_main_v3 (ix2 n c))) k = ix2 n k :=
  funext fun a => Fin.ext (by match a with | ⟨0, _⟩ => rfl | ⟨1, _⟩ => rfl)

/-- Entry (n, c) of the scaled input is entry c of the unit row n. -/
theorem ref_unit (n : Fin 262144) (c : Fin 512) :
    val_main_v4 (F := Ideal) x0 (ix2 n c)
      = Cert.Vq.unit (Ideal.ofBits .f32 0x2B8CBCCC#32) (fun q => x0 (ix2 n q)) c := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, idx_unit, Ideal.hostDivf_def, Ideal.maximumf_def, Ideal.hostUnary_sqrt_def,
    Ideal.ofBits_def, Ideal.mulf_def, Ideal.ofBits_zero_f32, zero_add]
  rfl

/-! ## The similarities -/

theorem lidx_sim (n : Fin 262144) (k : Fin 256) (c : Fin 512) : lidx_main_v11 (ix2 n k) c = ix2 n c :=
  funext fun a => Fin.ext (by match a with | ⟨0, _⟩ => rfl | ⟨1, _⟩ => rfl)

theorem ridx_sim (n : Fin 262144) (k : Fin 256) (c : Fin 512) : idx_main_v10 (ridx_main_v11 (ix2 n k) c) = ix2 k c :=
  funext fun a => Fin.ext (by match a with | ⟨0, _⟩ => rfl | ⟨1, _⟩ => rfl)

/-- Entry (n, k) of the product is the inner product of the unit row n with row k of the codebook. -/
theorem ref_sim (n : Fin 262144) (k : Fin 256) :
    val_main_v11 (F := Ideal) x0 x1 (ix2 n k)
      = Cert.Vq.sim (Ideal.ofBits .f32 0x2B8CBCCC#32) (fun p q => x0 (ix2 p q))
          (fun p q => val_main_v9 (F := Ideal) x1 (ix2 p q)) n k := by
  rw [val_main_v11_apply]
  show _ = ∑ c, Cert.Vq.unit (Ideal.ofBits .f32 0x2B8CBCCC#32) (fun q => x0 (ix2 n q)) c * val_main_v9 (F := Ideal) x1 (ix2 k c)
  refine Finset.sum_congr rfl fun c _ => ?_
  rw [val_main_v10_apply, lidx_sim, ridx_sim, ref_unit]

/-! ## The soft assignment -/

/-- Multiplying by the float one changes nothing. -/
theorem ref_scaled (n : Fin 262144) (k : Fin 256) :
    val_main_v13 (F := Ideal) x0 x1 (ix2 n k)
      = Cert.Vq.sim (Ideal.ofBits .f32 0x2B8CBCCC#32) (fun p q => x0 (ix2 p q))
          (fun p q => val_main_v9 (F := Ideal) x1 (ix2 p q)) n k := by
  rw [val_main_v13_apply, val_main_v12_apply, val_main_cst_1_apply, ref_sim]
  simp only [Ideal.mulf_def, Ideal.ofBits_def, ofBits_one_f32, one_mul]

theorem idx_top (n : Fin 262144) (k : Fin 256) : idx_main_v17 (idx_main_v18 (ix2 n k)) = ix1 n :=
  funext fun a => Fin.ext (by match a with | ⟨0, _⟩ => rfl)

/-- The row maximum: the maximum of the start value and the fold from it is the fold. -/
theorem ref_top (n : Fin 262144) :
    val_main_v16 (F := Ideal) x0 x1 (ix1 n)
      = Cert.Vq.top (Ideal.ofBits .f32 0xFF800000#32)
          (Cert.Vq.sim (Ideal.ofBits .f32 0x2B8CBCCC#32) (fun p q => x0 (ix2 p q))
            (fun p q => val_main_v9 (F := Ideal) x1 (ix2 p q)) n) := by
  rw [val_main_v16_apply, val_main_v15_apply, val_main_cst_3_apply]
  unfold val_main_v14
  rw [Cert.LibDenseOps.hostRowMax_apply _ _ reducesTo_S262144x256_S262144_d1 (by decide) h_S_ n, val_main_cst_2_apply]
  have hf : (fun c => val_main_v13 (F := Ideal) x0 x1 (ix2 n c))
      = Cert.Vq.sim (Ideal.ofBits .f32 0x2B8CBCCC#32) (fun p q => x0 (ix2 p q))
          (fun p q => val_main_v9 (F := Ideal) x1 (ix2 p q)) n := funext fun c => ref_scaled x0 x1 n c
  rw [hf]
  simp only [Ideal.maximumf_def, Ideal.ofBits_def]
  exact max_eq_right ((Finset.le_fold_max _).mpr (Or.inl le_rfl))

/-- The exponential of a similarity less the row maximum. -/
theorem ref_exp (n : Fin 262144) (k : Fin 256) :
    val_main_v20 (F := Ideal) x0 x1 (ix2 n k)
      = Ideal.exp (Cert.Vq.sim (Ideal.ofBits .f32 0x2B8CBCCC#32) (fun p q => x0 (ix2 p q))
            (fun p q => val_main_v9 (F := Ideal) x1 (ix2 p q)) n k
          - Cert.Vq.top (Ideal.ofBits .f32 0xFF800000#32)
              (Cert.Vq.sim (Ideal.ofBits .f32 0x2B8CBCCC#32) (fun p q => x0 (ix2 p q))
                (fun p q => val_main_v9 (F := Ideal) x1 (ix2 p q)) n)) := by
  rw [val_main_v20_apply, val_main_v19_apply, val_main_v18_apply, val_main_v17_apply, idx_top, ref_top, ref_scaled]
  simp only [Ideal.hostUnary_exp_def, Ideal.subf_def]

theorem idx_den (n : Fin 262144) (k : Fin 256) : idx_main_v22 (idx_main_v23 (ix2 n k)) = ix1 n :=
  funext fun a => Fin.ext (by match a with | ⟨0, _⟩ => rfl)

theorem idx_den_term (n : Fin 262144) (j : Fin 256) : idx_main_v21 (ix1 n) j = ix2 n j :=
  funext fun a => Fin.ext (by match a with | ⟨0, _⟩ => rfl | ⟨1, _⟩ => rfl)

/-- Entry (n, k) of the softmax is the soft assignment of row n to codebook row k. -/
theorem ref_coeff (n : Fin 262144) (k : Fin 256) :
    val_main_v24 (F := Ideal) x0 x1 (ix2 n k)
      = Cert.Vq.coeff (Ideal.ofBits .f32 0x2B8CBCCC#32) (Ideal.ofBits .f32 0xFF800000#32) (fun p q => x0 (ix2 p q))
          (fun p q => val_main_v9 (F := Ideal) x1 (ix2 p q)) n k := by
  rw [val_main_v24_apply, val_main_v23_apply, val_main_v22_apply, idx_den, val_main_v21_apply, val_main_cst_4_apply,
    ref_exp]
  simp only [idx_den_term, ref_exp, Ideal.hostDivf_def, Ideal.ofBits_def, Ideal.ofBits_zero_f32, zero_add]
  rfl

/-! ## Mass and moment -/

theorem idx_mass (k : Fin 256) (n : Fin 262144) : idx_main_v25 (ix1 k) n = ix2 n k :=
  funext fun a => Fin.ext (by match a with | ⟨0, _⟩ => rfl | ⟨1, _⟩ => rfl)

/-- The mass of codebook row k is the sum over all rows of the soft assignments to it. -/
theorem ref_mass (k : Fin 256) :
    val_main_v25 (F := Ideal) x0 x1 (ix1 k)
      = Cert.Vq.mass (Ideal.ofBits .f32 0x2B8CBCCC#32) (Ideal.ofBits .f32 0xFF800000#32) (fun p q => x0 (ix2 p q))
          (fun p q => val_main_v9 (F := Ideal) x1 (ix2 p q)) k := by
  rw [val_main_v25_apply, val_main_cst_5_apply, Ideal.ofBits_def, Ideal.ofBits_zero_f32, zero_add]
  unfold Cert.Vq.mass
  refine Finset.sum_congr rfl fun n _ => ?_
  rw [idx_mass, ref_coeff]

theorem lidx_moment (k : Fin 256) (c : Fin 512) (n : Fin 262144) : idx_main_v26 (lidx_main_v27 (ix2 k c) n) = ix2 n k :=
  funext fun a => Fin.ext (by match a with | ⟨0, _⟩ => rfl | ⟨1, _⟩ => rfl)

theorem ridx_moment (k : Fin 256) (c : Fin 512) (n : Fin 262144) : ridx_main_v27 (ix2 k c) n = ix2 n c :=
  funext fun a => Fin.ext (by match a with | ⟨0, _⟩ => rfl | ⟨1, _⟩ => rfl)

/-- The moment of codebook row k is the sum over all rows of the unit rows weighted by the soft assignments. -/
theorem ref_moment (k : Fin 256) (c : Fin 512) :
    val_main_v27 (F := Ideal) x0 x1 (ix2 k c)
      = Cert.Vq.moment (Ideal.ofBits .f32 0x2B8CBCCC#32) (Ideal.ofBits .f32 0xFF800000#32) (fun p q => x0 (ix2 p q))
          (fun p q => val_main_v9 (F := Ideal) x1 (ix2 p q)) k c := by
  rw [val_main_v27_apply]
  unfold Cert.Vq.moment
  refine Finset.sum_congr rfl fun n _ => ?_
  rw [val_main_v26_apply, lidx_moment, ridx_moment, ref_coeff, ref_unit]

end Cert.Vq.Ref
end
-- ==== Proof.Bridge.lean ====
/-
  The two programs compute the same three results.

  The kernel's codebook, as its region finds it, is the reference's codebook with unit rows: the same host operations of
  the same argument. So its similarities are the reference's matrix of inner products, its two sums over the cores are
  the reference's column sums of the softmax and its product of the transposed softmax with the unit rows, index by
  index; and the last step, shared by both, is applied to equal arguments. No finiteness of the inputs is used: the
  only laws are the regrouping of finite sums, `0 + a = a`, `1 · a = a` and `max b (fold max b s) = fold max b s`,
  all valid on the extended reals.
-/
import proofs.«181471_j45372034515504_1_alg».proof.Proof.KernelRun
import proofs.«181471_j45372034515504_1_alg».proof.Proof.RefSide
import proofs.«181471_j45372034515504_1_alg».proof.Defs
import proofs.«181471_j45372034515504_1_alg».proof.Proof.Gen.Pre_finite_inputs
import proofs.«181471_j45372034515504_1_alg».proof.Proof.Gen.ReferenceIdeal
import proofs.«181471_j45372034515504_1_alg».proof.Proof.Gen.KernelIdeal

set_option maxRecDepth 16384

noncomputable section

open Idealize.ShloMosaic Idealize.ShloMosaic.TcCoe Idealize.ShloMosaic.Tactic Idealize.ShloMosaic.ValueIdx Idealize.SL.Sem
open Idealize.ShloMosaic.StableHlo

namespace Cert.Vq.Bridge

open Cert.Vq.Sums Cert.Vq.Arrays Cert.Vq.KernelRun

local notation "εw" => (Ideal.ofBits FTy.f32 0x2B8CBCCC#32)
local notation "bw" => (Ideal.ofBits FTy.f32 0xFF800000#32)

variable (m : (ℓ : Loc Cert.KernelIdeal.nD Cert.KernelIdeal.τ Cert.KernelIdeal.sig) → Buf (Elt Ideal) ℓ)

/-- The three arguments as the kernel is launched with them. -/
abbrev a0 (c : Dev Cert.KernelIdeal.nD) : Cert.ReferenceIdeal.S262144x512.Idx → Elt Ideal .f32 :=
  m ((c.tc : Thread Cert.KernelIdeal.nD Cert.KernelIdeal.τ).loc Cert.KernelIdeal.main_arg0)
abbrev a1 (c : Dev Cert.KernelIdeal.nD) : Cert.ReferenceIdeal.S256x512.Idx → Elt Ideal .f32 :=
  m ((c.tc : Thread Cert.KernelIdeal.nD Cert.KernelIdeal.τ).loc Cert.KernelIdeal.main_arg1)
abbrev a2 (c : Dev Cert.KernelIdeal.nD) : Cert.ReferenceIdeal.S256.Idx → Elt Ideal .f32 :=
  m ((c.tc : Thread Cert.KernelIdeal.nD Cert.KernelIdeal.τ).loc Cert.KernelIdeal.main_arg2)

/-- The codebook the region finds is the reference's codebook with unit rows. -/
theorem codebook_eq (c : Dev Cert.KernelIdeal.nD) :
    (Cert.KernelIdeal.Gen.V m c Cert.KernelIdeal.main_v4 : Cert.KernelIdeal.S256x512.Idx → Elt Ideal .f32)
      = Cert.ReferenceIdeal.Read.val_main_v9 (F := Ideal) (a1 m c) := by
  refine Eq.trans (b := ?mid) ?h1 ?h2
  case h1 =>
    dsimp only [Cert.KernelIdeal.Gen.V, Cert.KernelIdeal.Gen.V0]
    simp only [Cert.KernelIdeal.Gen.hostOps0, Cert.KernelIdeal.Gen.hostOps0_1, List.flatten_cons, List.flatten_nil,
      List.append_nil, List.cons_append, List.nil_append]
    after_results
  case h2 => rfl

theorem X_eq (c : Dev Cert.KernelIdeal.nD) : X m c = fun n q => a0 m c (ix2 n q) := by
  unfold X; rw [Cert.KernelIdeal.Gen.V_main_arg0]

theorem W_eq (c : Dev Cert.KernelIdeal.nD) :
    W m c = fun k q => Cert.ReferenceIdeal.Read.val_main_v9 (F := Ideal) (a1 m c) (ix2 k q) := by
  unfold W; rw [codebook_eq m c]

/-- The similarities are the reference's matrix of inner products. -/
theorem sims_eq (c : Dev Cert.KernelIdeal.nD) :
    simArr m c = Cert.ReferenceIdeal.Read.val_main_v11 (F := Ideal) (a0 m c) (a1 m c) := by
  funext i
  obtain ⟨n, k, rfl⟩ : ∃ (n : Fin 262144) (k : Fin 256), i = ix2 n k := ⟨i 0, i 1, eq_ix2 i⟩
  rw [Cert.Vq.Ref.ref_sim (a0 m c) (a1 m c) n k, ← X_eq m c, ← W_eq m c]
  rfl

/-- The two cores' masses are the reference's column sums of the softmax. -/
theorem mass_eq (c : Dev Cert.KernelIdeal.nD) :
    massK m c = Cert.ReferenceIdeal.Read.val_main_v25 (F := Ideal) (a0 m c) (a1 m c) := by
  funext i
  obtain ⟨k, rfl⟩ : ∃ k : Fin 256, i = ix1 k := ⟨i 0, eq_ix1 i⟩
  rw [massK_apply m c k, Cert.Vq.Ref.ref_mass (a0 m c) (a1 m c) k, ← X_eq m c, ← W_eq m c]

/-- The two cores' moments are the reference's product of the transposed softmax with the unit rows. -/
theorem moment_eq (c : Dev Cert.KernelIdeal.nD) :
    momK m c = Cert.ReferenceIdeal.Read.val_main_v27 (F := Ideal) (a0 m c) (a1 m c) := by
  funext i
  obtain ⟨k, q, rfl⟩ : ∃ (k : Fin 256) (q : Fin 512), i = ix2 k q := ⟨i 0, i 1, eq_ix2 i⟩
  rw [momK_apply m c k q, Cert.Vq.Ref.ref_moment (a0 m c) (a1 m c) k q, ← X_eq m c, ← W_eq m c]

/-- The reference's new codebook is the shared last step of its codebook, column sums, product and count. -/
theorem ref_update (x0 : Cert.ReferenceIdeal.S262144x512.Idx → Elt Ideal .f32) (x1 : Cert.ReferenceIdeal.S256x512.Idx → Elt Ideal .f32)
    (x2 : Cert.ReferenceIdeal.S256.Idx → Elt Ideal .f32) :
    Cert.ReferenceIdeal.Read.val_main_v40 (F := Ideal) x0 x1 x2
      = Tail.update (F := Ideal) Cert.ReferenceIdeal.Facts₀.bcast_S_S256x1 Cert.ReferenceIdeal.Facts₀.bcast_S256_S256x1_0 Cert.ReferenceIdeal.Facts₀.bcast_S256x1_S256x512_0_1
          (Cert.ReferenceIdeal.Read.val_main_v9 (F := Ideal) x1) (Cert.ReferenceIdeal.Read.val_main_v25 (F := Ideal) x0 x1)
          (Cert.ReferenceIdeal.Read.val_main_v27 (F := Ideal) x0 x1) x2 := rfl

/-- The reference's new count likewise. -/
theorem ref_count (x0 : Cert.ReferenceIdeal.S262144x512.Idx → Elt Ideal .f32) (x1 : Cert.ReferenceIdeal.S256x512.Idx → Elt Ideal .f32)
    (x2 : Cert.ReferenceIdeal.S256.Idx → Elt Ideal .f32) :
    Cert.ReferenceIdeal.Read.val_main_v31 (F := Ideal) x0 x1 x2
      = Tail.count (F := Ideal) x2 (Cert.ReferenceIdeal.Read.val_main_v25 (F := Ideal) x0 x1) := rfl

/-- At the ideal values the kernel and the reference, run from memories that agree on the arguments, both terminate
    with equal similarities, equal new codebooks and equal new counts, and leave the arguments unchanged. -/
theorem algebraic : Cert.algebraic_KernelIdeal_ReferenceIdeal := by
  intro m ρ m' ρ' _ hagree
  refine ⟨fun c => simArr m c,
    fun c => Tail.update (F := Ideal) Cert.KernelIdeal.Facts₀.bcast_S_S256x1 Cert.KernelIdeal.Facts₀.bcast_S256_S256x1_0 Cert.KernelIdeal.Facts₀.bcast_S256x1_S256x512_0_1
      (Cert.KernelIdeal.Gen.V m c Cert.KernelIdeal.main_v4) (massK m c) (momK m c) (a2 m c),
    fun c => Tail.count (F := Ideal) (a2 m c) (massK m c), KernelRun.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v11_eq, (hagree c).1, (hagree c).2.1]
    exact (sims_eq m c).symm
  · rw [(h c).2.1, Cert.ReferenceIdeal.Read.val_main_v40_eq, (hagree c).1, (hagree c).2.1, (hagree c).2.2, ref_update]
    show _ = Tail.update (F := Ideal) _ _ _ (Cert.KernelIdeal.Gen.V m c Cert.KernelIdeal.main_v4) (massK m c) (momK m c) (a2 m c)
    rw [codebook_eq m c, mass_eq m c, moment_eq m c]
  · rw [(h c).2.2.1, Cert.ReferenceIdeal.Read.val_main_v31_eq, (hagree c).1, (hagree c).2.1, (hagree c).2.2, ref_count]
    show _ = Tail.count (F := Ideal) (a2 m c) (massK m c)
    rw [mass_eq m c]

end Cert.Vq.Bridge

end
-- ==== Proof.lean ====
/-
  The certificate of the clustering kernel against its reference.

  Both programs scale every data row and every codebook row to unit length, take the similarities (the inner products of
  data rows with codebook rows), pass each data row's similarities through a softmax, and sum over all rows the soft
  assignment (the mass of each codebook row) and the soft assignment times the unit row (its moment); the codebook is
  then moved toward moment / mass by the step mass / (count + mass). The kernel cuts the 262144 rows into 128 blocks,
  64 to each of two cores, carries the two sums block to block in scratch memory and writes each core's sums out at
  its last block; the program adds the two cores' sums. The reference sums over all rows at once. At the ideal values
  (floats as extended reals, exact operations, a change of format the identity) the two are the same numbers, because a
  finite sum on the extended reals may be regrouped freely: no finiteness of the inputs is used.

  The three frames are the generated frame runs (the reference's is its generated run with the results dropped); the
  kernel's idealization rewrote nothing, so `preserves` is `True`; `algebraic` is the bridge of the modules under
  Proof/: the body's arithmetic at an index (Body), the points' recurrences (Pieces, Steps), the blocks' places in
  the arrays (Entry), the sums (Sums, Arrays), the program around the region (KernelRun), the reference (RefSide) and
  their meeting (Bridge).
-/
import proofs.«181471_j45372034515504_1_alg».proof.Defs
import proofs.«181471_j45372034515504_1_alg».proof.Proof.Gen.Kernel
import proofs.«181471_j45372034515504_1_alg».proof.Proof.Gen.Kernel.Skeleton
import proofs.«181471_j45372034515504_1_alg».proof.Proof.Gen.Kernel.Launch
import proofs.«181471_j45372034515504_1_alg».proof.Proof.Gen.Kernel.Points
import proofs.«181471_j45372034515504_1_alg».proof.Proof.Gen.Kernel.Frame
import proofs.«181471_j45372034515504_1_alg».proof.Proof.Gen.KernelIdeal
import proofs.«181471_j45372034515504_1_alg».proof.Proof.Gen.KernelIdeal.Skeleton
import proofs.«181471_j45372034515504_1_alg».proof.Proof.Gen.KernelIdeal.Launch
import proofs.«181471_j45372034515504_1_alg».proof.Proof.Gen.KernelIdeal.Points
import proofs.«181471_j45372034515504_1_alg».proof.Proof.Gen.KernelIdeal.Frame
import proofs.«181471_j45372034515504_1_alg».proof.Proof.Gen.ReferenceIdeal
import proofs.«181471_j45372034515504_1_alg».proof.Proof.Gen.ReferenceIdeal.Run
import proofs.«181471_j45372034515504_1_alg».proof.Proof.Gen.ReferenceIdeal.Read
import proofs.«181471_j45372034515504_1_alg».proof.Proof.Gen.Pre_finite_inputs
import proofs.«181471_j45372034515504_1_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Vq.Bridge.algebraic⟩

end Cert.Proof

end
